-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024 .f32) (main_arg12 : FVec F S1024x1024 .f32) (main_arg13 : FVec F S1024x1024 .f32) (main_arg14 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_v48 main_v49 main_v50

def fn_part1 {F : FTy → Type} [FloatOps F] (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_arg12 : FVec F S1024x1024 .f32) (main_arg13 : FVec F S1024x1024 .f32) (main_arg14 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S2048x4096 : Shape := ⟨2, ![2048, 4096]⟩
abbrev S4096 : Shape := ⟨1, ![4096]⟩
abbrev S1x4096 : Shape := ⟨2, ![1, 4096]⟩
abbrev S256x1024 : Shape := ⟨2, ![256, 1024]⟩
abbrev S256x2048 : Shape := ⟨2, ![256, 2048]⟩
abbrev S2048x1024 : Shape := ⟨2, ![2048, 1024]⟩
abbrev S1x1024 : Shape := ⟨2, ![1, 1024]⟩

abbrev nBuf : Space → Nat
  | .hbm => 23
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x4096, .f32⟩
  | .hbm, ⟨16, _⟩ => ⟨S1024x4096, .f32⟩
  | .hbm, ⟨17, _⟩ => ⟨S2048x4096, .f32⟩
  | .hbm, ⟨18, _⟩ => ⟨S2048x4096, .bf16⟩
  | .hbm, ⟨19, _⟩ => ⟨S4096, .f32⟩
  | .hbm, ⟨20, _⟩ => ⟨S1x4096, .f32⟩
  | .hbm, ⟨21, _⟩ => ⟨S4096x1024, .f32⟩
  | .hbm, ⟨22, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x4096, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S1024x1024_S1024x1024_S1024x1024_S1024x1024_S1024x4096_d1 : Shape.Concatenates [S1024x1024, S1024x1024, S1024x1024, S1024x1024] S1024x4096 1
  concatenates_S1024x4096_S1024x4096_S2048x4096_d0 : Shape.Concatenates [S1024x4096, S1024x4096] S2048x4096 0
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  concatenates_S256x1024_S256x1024_S256x2048_d1 : Shape.Concatenates [S256x1024, S256x1024] S256x2048 1
  inb_S2048x4096_S2048x1024_0_0 : ∀ a, (![0, 0] : Fin 2 → Nat) a + S2048x1024.size a ≤ S2048x4096.size a
  h_S2048x1024 : 0 < S2048x1024.numel
  shapeCasts_S2048x1024_S2048x1024 : S2048x1024.ShapeCasts S2048x1024
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1x1024_S256x1024 : S1x1024.Broadcasts S256x1024
  inb_S2048x4096_S2048x1024_0_1024 : ∀ a, (![0, 1024] : Fin 2 → Nat) a + S2048x1024.size a ≤ S2048x4096.size a
  inb_S1x4096_S1x1024_0_1024 : ∀ a, (![0, 1024] : Fin 2 → Nat) a + S1x1024.size a ≤ S1x4096.size a
  inb_S2048x4096_S2048x1024_0_2048 : ∀ a, (![0, 2048] : Fin 2 → Nat) a + S2048x1024.size a ≤ S2048x4096.size a
  inb_S1x4096_S1x1024_0_2048 : ∀ a, (![0, 2048] : Fin 2 → Nat) a + S1x1024.size a ≤ S1x4096.size a
  inb_S2048x4096_S2048x1024_0_3072 : ∀ a, (![0, 3072] : Fin 2 → Nat) a + S2048x1024.size a ≤ S2048x4096.size a
  inb_S1x4096_S1x1024_0_3072 : ∀ a, (![0, 3072] : Fin 2 → Nat) a + S1x1024.size a ≤ S1x4096.size a
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .f32 = 32 ∨ (Rect.block (s := S4096x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024, .f32⟩
  | .hbm, ⟨15, _⟩ => ⟨S1024x4096, .f32⟩
  | .hbm, ⟨16, _⟩ => ⟨S1024x4096, .f32⟩
  | .hbm, ⟨17, _⟩ => ⟨S4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KDefs.lean ====
/-
  The arrays as the kernel's region finds them, and the per-gate parameter arrays.

  Before the region the host stacks the four gates' input weights side by side, the four recurrent weights side by
  side, puts the first stack above the second, and lays the four biases end to end as one row. `V` is every buffer's
  contents after those operations. `Wsel`, `Usel`, `bsel` pick the input weights, recurrent weights and bias of gate
  g (0 forget, 1 input, 2 candidate, 3 output) among the argument arrays as launched.
-/
import proofs.«157185_j71957882077215_2_alg».proof.Proof.Gen.Kernel.Launch
import Idealize.ShloMosaic.Lib.StableHlo.Run

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- Core c's buffers when the region is entered: the launch contents after the host's concatenations, conversion
    and reshape. -/
abbrev V (c : Dev nD) (b : Ref sig .tc) : Buf (Elt F) ((c : Thread nD τ).loc b) :=
  StableHlo.after hostOps0 (fun b => m (c, b)) b

/-- Gate g's input weights, as launched. -/
def Wsel (c : Dev nD) : Fin 4 → Vec F S1024x1024 .f32
  | 0 => m ((c : Thread nD τ).loc main_arg3)
  | 1 => m ((c : Thread nD τ).loc main_arg6)
  | 2 => m ((c : Thread nD τ).loc main_arg9)
  | 3 => m ((c : Thread nD τ).loc main_arg12)
  | ⟨_ + 4, h⟩ => absurd h (Nat.not_lt.2 (Nat.le_add_left _ _))

/-- Gate g's recurrent weights, as launched. -/
def Usel (c : Dev nD) : Fin 4 → Vec F S1024x1024 .f32
  | 0 => m ((c : Thread nD τ).loc main_arg4)
  | 1 => m ((c : Thread nD τ).loc main_arg7)
  | 2 => m ((c : Thread nD τ).loc main_arg10)
  | 3 => m ((c : Thread nD τ).loc main_arg13)
  | ⟨_ + 4, h⟩ => absurd h (Nat.not_lt.2 (Nat.le_add_left _ _))

/-- Gate g's bias, as launched. -/
def bsel (c : Dev nD) : Fin 4 → Vec F S1024 .f32
  | 0 => m ((c : Thread nD τ).loc main_arg5)
  | 1 => m ((c : Thread nD τ).loc main_arg8)
  | 2 => m ((c : Thread nD τ).loc main_arg11)
  | 3 => m ((c : Thread nD τ).loc main_arg14)
  | ⟨_ + 4, h⟩ => absurd h (Nat.not_lt.2 (Nat.le_add_left _ _))

end Cert.Kernel.Hand

end
-- ==== Proof.KFrame.lean ====
/-
  The frame of the LSTM-cell program: it runs to the end, faults nowhere, and leaves its fifteen argument arrays
  unchanged; and, for the value, what each grid point leaves in the two output windows' buffers.

  The program is six host operations (concatenations of the gates' parameters, a conversion, a reshape) and one
  pipelined region over sixteen row bands. At every band the body loads its three input bands, the whole stacked-weights
  block and the whole bias row, and stores each of its two output bands ONCE, whole: the new hidden state and the new
  cell state, each a pure function of what it loaded. So after the body an output's buffer holds that function of the
  input blocks, whatever it held before (the body also loads the output buffers before storing them; the loaded
  values are not used). The argument arrays are either staged inputs, which the pipeline never writes back, or
  buffers the region does not touch.
-/
import proofs.«157185_j71957882077215_2_alg».proof.Proof.Gen.Kernel.Launch
import proofs.«157185_j71957882077215_2_alg».proof.Proof.Gen.Kernel.Skeleton
import proofs.«157185_j71957882077215_2_alg».proof.Proof.Gen.Kernel.Points
import proofs.«157185_j71957882077215_2_alg».proof.Proof.KDefs
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations, then the region -/

/-- None of the host operations allocates a buffer. -/
theorem hostOps0_fresh : (hostOps0 : List (HloOp τ sig (Elt F))).Forall fun op => op.fresh = ∅ := by
  simp only [List.Forall]; repeat' constructor

/-- The program up to the region: the host operations, then the region, entered at the contents `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the pipeline's post -/

/-- For any proof data whose arrays are the region-entry contents, a run ending with every array of the pipeline at
    what the proof data computes and every other buffer as the region found it ends with the fifteen argument arrays
    as launched: the first three are staged inputs, never written back; the other twelve the region does not touch. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses -/

/-- A whole band (the three input bands and the two output bands are loaded and stored whole). -/
abbrev rIO : Rect S256x1024 := Rect.unit (s := S256x1024) ![0, 0] S256x1024.size inb_S256x1024_S256x1024_0_0
/-- Gate g's columns of the stacked weights. -/
abbrev rV0 : Rect S2048x4096 := Rect.unit (s := S2048x4096) ![0, 0] S2048x1024.size inb_S2048x4096_S2048x1024_0_0
abbrev rV1 : Rect S2048x4096 := Rect.unit (s := S2048x4096) ![0, 1024] S2048x1024.size inb_S2048x4096_S2048x1024_0_1024
abbrev rV2 : Rect S2048x4096 := Rect.unit (s := S2048x4096) ![0, 2048] S2048x1024.size inb_S2048x4096_S2048x1024_0_2048
abbrev rV3 : Rect S2048x4096 := Rect.unit (s := S2048x4096) ![0, 3072] S2048x1024.size inb_S2048x4096_S2048x1024_0_3072
/-- Gate g's columns of the bias row. -/
abbrev rB0 : Rect S1x4096 := Rect.unit (s := S1x4096) ![0, 0] S1x1024.size inb_S1x4096_S1x1024_0_0
abbrev rB1 : Rect S1x4096 := Rect.unit (s := S1x4096) ![0, 1024] S1x1024.size inb_S1x4096_S1x1024_0_1024
abbrev rB2 : Rect S1x4096 := Rect.unit (s := S1x4096) ![0, 2048] S1x1024.size inb_S1x4096_S1x1024_0_2048
abbrev rB3 : Rect S1x4096 := Rect.unit (s := S1x4096) ![0, 3072] S1x1024.size inb_S1x4096_S1x1024_0_3072

/-! ## What the body leaves in each output window's buffer -/

/-- The new cell state of a band, from the three input bands, the stacked weights and the bias row. -/
def cellOf5 (x0 x1 x2 : Vec F S256x1024 .f32) (x3 : Vec F S2048x4096 .bf16) (x4 : Vec F S1x4096 .f32) : FVec F S256x1024 .f32 :=
  k0_pay3 (View.ld x0 rIO) (View.ld x1 rIO) (View.ld x2 rIO) (View.ld x3 rV0) (View.ld x4 rB0) (View.ld x3 rV1) (View.ld x4 rB1) (View.ld x3 rV2) (View.ld x4 rB2)

/-- Window 6's buffer after the body: its one store, of the new cell state. -/
def out0_6 (x0 x1 x2 : Vec F S256x1024 .f32) (x3 : Vec F S2048x4096 .bf16) (x4 : Vec F S1x4096 .f32) : Vec F S256x1024 .f32 :=
  View.canon [⟨rIO, cellOf5 x0 x1 x2 x3 x4⟩]

/-- Window 5's buffer after the body: its one store, of the new hidden state. -/
def out0_5 (x0 x1 x2 : Vec F S256x1024 .f32) (x3 : Vec F S2048x4096 .bf16) (x4 : Vec F S1x4096 .f32) : Vec F S256x1024 .f32 :=
  View.canon [⟨rIO, k0_pay1 (k0_pay2 (View.ld x0 rIO) (View.ld x1 rIO)) (cellOf5 x0 x1 x2 x3 x4) (k0_pay4 (View.ld x3 rV3)) (View.ld x4 rB3)⟩]

/-- One whole-band store covers the band. -/
theorem cover_band (p0 : Vec F S256x1024 .f32) (y : S256x1024.Idx) :
    ∃ pc ∈ ([⟨rIO, p0⟩] : List (View.Piece (Elt F) S256x1024 .f32)), y ∈ pc.1.set :=
  View.cover_of_tiled [⟨rIO, p0⟩] S256x1024.size (by rfl) y

/-! ## The body's triple -/

set_option maxHeartbeats 4000000 in
/-- The body on whole staging buffers, the inputs' at known contents and the outputs' at anything, runs to the end
    holding the inputs' as they were and each output's at its function of the inputs'. -/
theorem sound_kernel (c : Dev nD) (E : Set ℕ) (i : grid0.Coords)
    (arg1 : Memref sig .tc .vmem S256x1024 .f32) (harg1 : arg1.IsWhole)
    (arg2 : Memref sig .tc .vmem S256x1024 .f32) (harg2 : arg2.IsWhole)
    (arg3 : Memref sig .tc .vmem S256x1024 .f32) (harg3 : arg3.IsWhole)
    (arg4 : Memref sig .tc .vmem S2048x4096 .bf16) (harg4 : arg4.IsWhole)
    (arg5 : Memref sig .tc .vmem S1x4096 .f32) (harg5 : arg5.IsWhole)
    (arg6 : Memref sig .tc .vmem S256x1024 .f32) (harg6 : arg6.IsWhole)
    (arg7 : Memref sig .tc .vmem S256x1024 .f32) (harg7 : arg7.IsWhole)
    (x0 x1 x2 : Vec F S256x1024 .f32) (x3 : Vec F S2048x4096 .bf16) (x4 : Vec F S1x4096 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    exact View.read_writes_eq_canon _ _ _ (cover_band _)
  iexists _; isplitr
  swap; · iexact H6
  ipureintro
  sl_unfold_run_names
  exact View.read_writes_eq_canon _ _ _ (cover_band _)

/-! ## The pipeline's proof data -/

/-- The proof data of the pipeline on core `c`: the arrays as the region finds them; after the body at point `t`
    each input's buffer at its block and each output's at its function of the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, nothing faulting, with
    every array of the pipeline at what the proof data computes and every other unscoped buffer as the region found
    it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its fifteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Hand

end
-- ==== Proof.KIDefs.lean ====
/-
  The arrays as the kernel's region finds them, and the per-gate parameter arrays.

  Before the region the host stacks the four gates' input weights side by side, the four recurrent weights side by
  side, puts the first stack above the second, and lays the four biases end to end as one row. `V` is every buffer's
  contents after those operations. `Wsel`, `Usel`, `bsel` pick the input weights, recurrent weights and bias of gate
  g (0 forget, 1 input, 2 candidate, 3 output) among the argument arrays as launched.
-/
import proofs.«157185_j71957882077215_2_alg».proof.Proof.Gen.KernelIdeal.Launch
import Idealize.ShloMosaic.Lib.StableHlo.Run

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- Core c's buffers when the region is entered: the launch contents after the host's concatenations, conversion
    and reshape. -/
abbrev V (c : Dev nD) (b : Ref sig .tc) : Buf (Elt F) ((c : Thread nD τ).loc b) :=
  StableHlo.after hostOps0 (fun b => m (c, b)) b

/-- Gate g's input weights, as launched. -/
def Wsel (c : Dev nD) : Fin 4 → Vec F S1024x1024 .f32
  | 0 => m ((c : Thread nD τ).loc main_arg3)
  | 1 => m ((c : Thread nD τ).loc main_arg6)
  | 2 => m ((c : Thread nD τ).loc main_arg9)
  | 3 => m ((c : Thread nD τ).loc main_arg12)
  | ⟨_ + 4, h⟩ => absurd h (Nat.not_lt.2 (Nat.le_add_left _ _))

/-- Gate g's recurrent weights, as launched. -/
def Usel (c : Dev nD) : Fin 4 → Vec F S1024x1024 .f32
  | 0 => m ((c : Thread nD τ).loc main_arg4)
  | 1 => m ((c : Thread nD τ).loc main_arg7)
  | 2 => m ((c : Thread nD τ).loc main_arg10)
  | 3 => m ((c : Thread nD τ).loc main_arg13)
  | ⟨_ + 4, h⟩ => absurd h (Nat.not_lt.2 (Nat.le_add_left _ _))

/-- Gate g's bias, as launched. -/
def bsel (c : Dev nD) : Fin 4 → Vec F S1024 .f32
  | 0 => m ((c : Thread nD τ).loc main_arg5)
  | 1 => m ((c : Thread nD τ).loc main_arg8)
  | 2 => m ((c : Thread nD τ).loc main_arg11)
  | 3 => m ((c : Thread nD τ).loc main_arg14)
  | ⟨_ + 4, h⟩ => absurd h (Nat.not_lt.2 (Nat.le_add_left _ _))

end Cert.KernelIdeal.Hand

end
-- ==== Proof.KIFrame.lean ====
/-
  The frame of the LSTM-cell program: it runs to the end, faults nowhere, and leaves its fifteen argument arrays
  unchanged; and, for the value, what each grid point leaves in the two output windows' buffers.

  The program is six host operations (concatenations of the gates' parameters, a conversion, a reshape) and one
  pipelined region over sixteen row bands. At every band the body loads its three input bands, the whole stacked-weights
  block and the whole bias row, and stores each of its two output bands ONCE, whole: the new hidden state and the new
  cell state, each a pure function of what it loaded. So after the body an output's buffer holds that function of the
  input blocks, whatever it held before (the body also loads the output buffers before storing them; the loaded
  values are not used). The argument arrays are either staged inputs, which the pipeline never writes back, or
  buffers the region does not touch.
-/
import proofs.«157185_j71957882077215_2_alg».proof.Proof.Gen.KernelIdeal.Launch
import proofs.«157185_j71957882077215_2_alg».proof.Proof.Gen.KernelIdeal.Skeleton
import proofs.«157185_j71957882077215_2_alg».proof.Proof.Gen.KernelIdeal.Points
import proofs.«157185_j71957882077215_2_alg».proof.Proof.KIDefs
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations, then the region -/

/-- None of the host operations allocates a buffer. -/
theorem hostOps0_fresh : (hostOps0 : List (HloOp τ sig (Elt F))).Forall fun op => op.fresh = ∅ := by
  simp only [List.Forall]; repeat' constructor

/-- The program up to the region: the host operations, then the region, entered at the contents `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the pipeline's post -/

/-- For any proof data whose arrays are the region-entry contents, a run ending with every array of the pipeline at
    what the proof data computes and every other buffer as the region found it ends with the fifteen argument arrays
    as launched: the first three are staged inputs, never written back; the other twelve the region does not touch. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

/-! ## The body's accesses -/

/-- A whole band (the three input bands and the two output bands are loaded and stored whole). -/
abbrev rIO : Rect S256x1024 := Rect.unit (s := S256x1024) ![0, 0] S256x1024.size inb_S256x1024_S256x1024_0_0
/-- Gate g's columns of the stacked weights. -/
abbrev rV0 : Rect S2048x4096 := Rect.unit (s := S2048x4096) ![0, 0] S2048x1024.size inb_S2048x4096_S2048x1024_0_0
abbrev rV1 : Rect S2048x4096 := Rect.unit (s := S2048x4096) ![0, 1024] S2048x1024.size inb_S2048x4096_S2048x1024_0_1024
abbrev rV2 : Rect S2048x4096 := Rect.unit (s := S2048x4096) ![0, 2048] S2048x1024.size inb_S2048x4096_S2048x1024_0_2048
abbrev rV3 : Rect S2048x4096 := Rect.unit (s := S2048x4096) ![0, 3072] S2048x1024.size inb_S2048x4096_S2048x1024_0_3072
/-- Gate g's columns of the bias row. -/
abbrev rB0 : Rect S1x4096 := Rect.unit (s := S1x4096) ![0, 0] S1x1024.size inb_S1x4096_S1x1024_0_0
abbrev rB1 : Rect S1x4096 := Rect.unit (s := S1x4096) ![0, 1024] S1x1024.size inb_S1x4096_S1x1024_0_1024
abbrev rB2 : Rect S1x4096 := Rect.unit (s := S1x4096) ![0, 2048] S1x1024.size inb_S1x4096_S1x1024_0_2048
abbrev rB3 : Rect S1x4096 := Rect.unit (s := S1x4096) ![0, 3072] S1x1024.size inb_S1x4096_S1x1024_0_3072

/-! ## What the body leaves in each output window's buffer -/

/-- The new cell state of a band, from the three input bands, the stacked weights and the bias row. -/
def cellOf5 (x0 x1 x2 : Vec F S256x1024 .f32) (x3 : Vec F S2048x4096 .bf16) (x4 : Vec F S1x4096 .f32) : FVec F S256x1024 .f32 :=
  k0_pay3 (View.ld x0 rIO) (View.ld x1 rIO) (View.ld x2 rIO) (View.ld x3 rV0) (View.ld x4 rB0) (View.ld x3 rV1) (View.ld x4 rB1) (View.ld x3 rV2) (View.ld x4 rB2)

/-- Window 6's buffer after the body: its one store, of the new cell state. -/
def out0_6 (x0 x1 x2 : Vec F S256x1024 .f32) (x3 : Vec F S2048x4096 .bf16) (x4 : Vec F S1x4096 .f32) : Vec F S256x1024 .f32 :=
  View.canon [⟨rIO, cellOf5 x0 x1 x2 x3 x4⟩]

/-- Window 5's buffer after the body: its one store, of the new hidden state. -/
def out0_5 (x0 x1 x2 : Vec F S256x1024 .f32) (x3 : Vec F S2048x4096 .bf16) (x4 : Vec F S1x4096 .f32) : Vec F S256x1024 .f32 :=
  View.canon [⟨rIO, k0_pay1 (k0_pay2 (View.ld x0 rIO) (View.ld x1 rIO)) (cellOf5 x0 x1 x2 x3 x4) (k0_pay4 (View.ld x3 rV3)) (View.ld x4 rB3)⟩]

/-- One whole-band store covers the band. -/
theorem cover_band (p0 : Vec F S256x1024 .f32) (y : S256x1024.Idx) :
    ∃ pc ∈ ([⟨rIO, p0⟩] : List (View.Piece (Elt F) S256x1024 .f32)), y ∈ pc.1.set :=
  View.cover_of_tiled [⟨rIO, p0⟩] S256x1024.size (by rfl) y

/-! ## The body's triple -/

set_option maxHeartbeats 4000000 in
/-- The body on whole staging buffers, the inputs' at known contents and the outputs' at anything, runs to the end
    holding the inputs' as they were and each output's at its function of the inputs'. -/
theorem sound_kernel (c : Dev nD) (E : Set ℕ) (i : grid0.Coords)
    (arg1 : Memref sig .tc .vmem S256x1024 .f32) (harg1 : arg1.IsWhole)
    (arg2 : Memref sig .tc .vmem S256x1024 .f32) (harg2 : arg2.IsWhole)
    (arg3 : Memref sig .tc .vmem S256x1024 .f32) (harg3 : arg3.IsWhole)
    (arg4 : Memref sig .tc .vmem S2048x4096 .bf16) (harg4 : arg4.IsWhole)
    (arg5 : Memref sig .tc .vmem S1x4096 .f32) (harg5 : arg5.IsWhole)
    (arg6 : Memref sig .tc .vmem S256x1024 .f32) (harg6 : arg6.IsWhole)
    (arg7 : Memref sig .tc .vmem S256x1024 .f32) (harg7 : arg7.IsWhole)
    (x0 x1 x2 : Vec F S256x1024 .f32) (x3 : Vec F S2048x4096 .bf16) (x4 : Vec F S1x4096 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    exact View.read_writes_eq_canon _ _ _ (cover_band _)
  iexists _; isplitr
  swap; · iexact H6
  ipureintro
  sl_unfold_run_names
  exact View.read_writes_eq_canon _ _ _ (cover_band _)

/-! ## The pipeline's proof data -/

/-- The proof data of the pipeline on core `c`: the arrays as the region finds them; after the body at point `t`
    each input's buffer at its block and each output's at its function of the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, nothing faulting, with
    every array of the pipeline at what the proof data computes and every other unscoped buffer as the region found
    it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its fifteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Hand

end
-- ==== Proof.KIBlocks.lean ====
/-
  The blocks of the sixteen row bands, read at coordinates.

  Band t of an array of 4096 rows is its rows 256·t … 256·t + 255: the three input bands and the two output bands move
  with the grid point, entry (p, k) of band t being entry (256·t + p, k) of the array. The stacked weights and the bias
  row are staged whole: their one block is the array. Every index of an output array lies in exactly the band of its
  row, row / 256, and every band is written back, so the bands cover the array.
-/
import proofs.«157185_j71957882077215_2_alg».proof.Proof.KIFrame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

theorem hz : (![0, 0] : Fin 2 → Nat) = fun _ => 0 := funext fun a => by fin_cases a <;> rfl

/-- The index maps over the grid: the five banded windows are at block row t, the two whole ones at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- A grid point's band lies inside the 4096 rows. -/
theorem row_lt (t : Fin cfg0.N) (p : Fin 256) : 256 * t.val + p.val < 4096 := by
  have ht : t.val < 16 := Nat.lt_of_lt_of_eq t.isLt N_0
  omega

/-- Band t of x at (p, k) is x at (256·t + p, k). -/
theorem iblk0_apply (c : Dev nD) (t : Fin cfg0.N) (p : Fin 256) (k : Fin 1024) :
    iblk m c 0 t (ix2 p k) = m ((c : Thread nD τ).loc main_arg0) (ix2 (⟨256 * t.val + p.val, row_lt t p⟩ : Fin 4096) k) := by
  show V m c main_arg0 (((cfg0.win 0).blk t).view.emb (ix2 p k)) = _
  rw [V_main_arg0]
  refine congrArg (m ((c : Thread nD τ).loc main_arg0)) (funext fun a => Fin.ext ?_)
  obtain ⟨e0, e1, -⟩ := idx_facts t
  match a with
  | ⟨0, _⟩ => show win0_0.index t (0 : Fin 2) * 256 + 1 * p.val = 256 * t.val + p.val; omega
  | ⟨1, _⟩ => show win0_0.index t (1 : Fin 2) * 1024 + 1 * k.val = k.val; omega

/-- Band t of h at (p, k) is h at (256·t + p, k). -/
theorem iblk1_apply (c : Dev nD) (t : Fin cfg0.N) (p : Fin 256) (k : Fin 1024) :
    iblk m c 1 t (ix2 p k) = m ((c : Thread nD τ).loc main_arg1) (ix2 (⟨256 * t.val + p.val, row_lt t p⟩ : Fin 4096) k) := by
  show V m c main_arg1 (((cfg0.win 1).blk t).view.emb (ix2 p k)) = _
  rw [V_main_arg1]
  refine congrArg (m ((c : Thread nD τ).loc main_arg1)) (funext fun a => Fin.ext ?_)
  obtain ⟨-, -, e0, e1, -⟩ := idx_facts t
  match a with
  | ⟨0, _⟩ => show win0_1.index t (0 : Fin 2) * 256 + 1 * p.val = 256 * t.val + p.val; omega
  | ⟨1, _⟩ => show win0_1.index t (1 : Fin 2) * 1024 + 1 * k.val = k.val; omega

/-- Band t of c at (p, k) is c at (256·t + p, k). -/
theorem iblk2_apply (c : Dev nD) (t : Fin cfg0.N) (p : Fin 256) (k : Fin 1024) :
    iblk m c 2 t (ix2 p k) = m ((c : Thread nD τ).loc main_arg2) (ix2 (⟨256 * t.val + p.val, row_lt t p⟩ : Fin 4096) k) := by
  show V m c main_arg2 (((cfg0.win 2).blk t).view.emb (ix2 p k)) = _
  rw [V_main_arg2]
  refine congrArg (m ((c : Thread nD τ).loc main_arg2)) (funext fun a => Fin.ext ?_)
  obtain ⟨-, -, -, -, e0, e1, -⟩ := idx_facts t
  match a with
  | ⟨0, _⟩ => show win0_2.index t (0 : Fin 2) * 256 + 1 * p.val = 256 * t.val + p.val; omega
  | ⟨1, _⟩ => show win0_2.index t (1 : Fin 2) * 1024 + 1 * k.val = k.val; omega

/-- The stacked weights' one block is the array. -/
theorem iblk3_apply (c : Dev nD) (t : Fin cfg0.N) (k : Fin 2048) (col : Fin 4096) :
    iblk m c 3 t (ix2 k col) = V m c main_v3 (ix2 k col) := by
  show V m c main_v3 (((cfg0.win 3).blk t).view.emb (ix2 k col)) = _
  refine congrArg (V m c main_v3) (funext fun a => Fin.ext ?_)
  obtain ⟨-, -, -, -, -, -, e0, e1, -⟩ := idx_facts t
  match a with
  | ⟨0, _⟩ => show win0_3.index t (0 : Fin 2) * 2048 + 1 * k.val = k.val; omega
  | ⟨1, _⟩ => show win0_3.index t (1 : Fin 2) * 4096 + 1 * col.val = col.val; omega

/-- The bias row's one block is the array. -/
theorem iblk4_apply (c : Dev nD) (t : Fin cfg0.N) (z : Fin 1) (col : Fin 4096) :
    iblk m c 4 t (ix2 z col) = V m c main_v5 (ix2 z col) := by
  show V m c main_v5 (((cfg0.win 4).blk t).view.emb (ix2 z col)) = _
  refine congrArg (V m c main_v5) (funext fun a => Fin.ext ?_)
  obtain ⟨-, -, -, -, -, -, -, -, e0, e1, -⟩ := idx_facts t
  match a with
  | ⟨0, _⟩ => show win0_4.index t (0 : Fin 2) * 1 + 1 * z.val = z.val; omega
  | ⟨1, _⟩ => show win0_4.index t (1 : Fin 2) * 4096 + 1 * col.val = col.val; omega

/-- Entry (p, q) of output band t of the hidden state sits at (256·t + p, q) of the array. -/
theorem emb5 (t : Fin cfg0.N) (p : Fin 256) (q : Fin 1024) :
    ((cfg0.win 5).blk t).view.emb (ix2 p q) = ix2 (⟨256 * t.val + p.val, row_lt t p⟩ : Fin 4096) q := by
  refine funext fun a => Fin.ext ?_
  obtain ⟨-, -, -, -, -, -, -, -, -, -, e0, e1, -⟩ := idx_facts t
  match a with
  | ⟨0, _⟩ => show win0_5.index t (0 : Fin 2) * 256 + 1 * p.val = 256 * t.val + p.val; omega
  | ⟨1, _⟩ => show win0_5.index t (1 : Fin 2) * 1024 + 1 * q.val = q.val; omega

/-- Entry (p, q) of output band t of the cell state sits at (256·t + p, q) of the array. -/
theorem emb6 (t : Fin cfg0.N) (p : Fin 256) (q : Fin 1024) :
    ((cfg0.win 6).blk t).view.emb (ix2 p q) = ix2 (⟨256 * t.val + p.val, row_lt t p⟩ : Fin 4096) q := by
  refine funext fun a => Fin.ext ?_
  obtain ⟨-, -, -, -, -, -, -, -, -, -, -, -, e0, e1⟩ := idx_facts t
  match a with
  | ⟨0, _⟩ => show win0_6.index t (0 : Fin 2) * 256 + 1 * p.val = 256 * t.val + p.val; omega
  | ⟨1, _⟩ => show win0_6.index t (1 : Fin 2) * 1024 + 1 * q.val = q.val; omega

/-- An index of the hidden-state array is in band t iff each coordinate is in the band's range. -/
theorem mem_blk5 (t : Fin cfg0.N) (i : S4096x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v6_0).slice (win0_5.rect t)).set ↔ _
  rw [View.set_slice_whole, Rect.mem_set_unit]
  exact Iff.rfl

theorem mem_blk6 (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v6_1).slice (win0_6.rect t)).set ↔ _
  rw [View.set_slice_whole, Rect.mem_set_unit]
  exact Iff.rfl

/-- The band of a row. -/
def bandOf (i : S4096x1024.Idx) : Fin cfg0.N :=
  ⟨(i 0).val / 256, by rw [show cfg0.N = 16 from N_0]; have h : (i 0).val < 4096 := (i 0).isLt; omega⟩

/-- Every index of the hidden-state array is in a band that is written back. -/
theorem cover5 (i : S4096x1024.Idx) :
    ∃ t : Fin cfg0.N, (cfg0.win 5).flush t = true ∧ i ∈ ((cfg0.win 5).blk t).view.set := by
  have hi0 : (i 0).val < 4096 := (i 0).isLt
  have hi1 : (i 1).val < 1024 := (i 1).isLt
  refine ⟨bandOf i, flush0_5 _, ?_⟩
  rw [mem_blk5]
  obtain ⟨-, -, -, -, -, -, -, -, -, -, e0, e1, -⟩ := idx_facts (bandOf i)
  have hb : (bandOf i).val = (i 0).val / 256 := rfl
  intro a
  match a with
  | ⟨0, _⟩ => show win0_5.index (bandOf i) (0 : Fin 2) * 256 ≤ (i 0).val ∧ (i 0).val < win0_5.index (bandOf i) (0 : Fin 2) * 256 + 256; omega
  | ⟨1, _⟩ => show win0_5.index (bandOf i) (1 : Fin 2) * 1024 ≤ (i 1).val ∧ (i 1).val < win0_5.index (bandOf i) (1 : Fin 2) * 1024 + 1024; omega

/-- Every index of the cell-state array is in a band that is written back. -/
theorem cover6 (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  refine ⟨bandOf i, flush0_6 _, ?_⟩
  rw [mem_blk6]
  obtain ⟨-, -, -, -, -, -, -, -, -, -, -, -, e0, e1⟩ := idx_facts (bandOf i)
  have hb : (bandOf i).val = (i 0).val / 256 := rfl
  intro a
  match a with
  | ⟨0, _⟩ => show win0_6.index (bandOf i) (0 : Fin 2) * 256 ≤ (i 0).val ∧ (i 0).val < win0_6.index (bandOf i) (0 : Fin 2) * 256 + 256; omega
  | ⟨1, _⟩ => show win0_6.index (bandOf i) (1 : Fin 2) * 1024 ≤ (i 1).val ∧ (i 1).val < win0_6.index (bandOf i) (1 : Fin 2) * 1024 + 1024; omega

end Cert.KernelIdeal.Hand

end
-- ==== Proof.Spec.lean ====
/-
  One step of an LSTM cell over the extended reals, entry by entry.

  For a batch row r and a hidden column j, each of the four gates has the pre-activation
      pre = (∑ k, x(r,k) · W(k,j)) + (∑ k, h(r,k) · U(k,j)) + b(j)
  with its own weights W, U and bias b. With f, i, g, o the pre-activations of the forget, input, candidate and
  output gates, the new cell state is  σ(f) · c(r,j) + σ(i) · tanh(g)  and the new hidden state is
  σ(o) · tanh(new cell state), where σ(t) = 1 / (1 + e^(-t)).

  `blkGate` is the same pre-activation written from a band of rows of x and h and from the weights stacked one above
  the other ([W; U], 2048 rows): the sum over the stacked axis is the sum over its first 1024 positions plus the sum
  over its last 1024. `blkGate_eq_pre` says the two agree whenever the band's rows, the stacked weights' column and the
  bias entry are the corresponding entries of the whole arrays.
-/
import Idealize.ShloMosaic.PureOps.Ideal
import Idealize.ShloMosaic.Lib.ValueIdx

noncomputable section

namespace Cert.Lstm

open Idealize.ShloMosaic Idealize.ShloMosaic.ValueIdx

/-- A matrix of extended reals. -/
abbrev Mat (a b : ℕ) : Type := (⟨2, ![a, b]⟩ : Shape).Idx → EReal
/-- A vector of extended reals. -/
abbrev Vect (a : ℕ) : Type := (⟨1, ![a]⟩ : Shape).Idx → EReal

/-- One gate's pre-activation at row r, column j: x(r,·)·W(·,j) + h(r,·)·U(·,j) + b(j). -/
def pre (x h : Mat 4096 1024) (W U : Mat 1024 1024) (b : Vect 1024) (r : Fin 4096) (j : Fin 1024) : EReal :=
  ((∑ k : Fin 1024, x (ix2 r k) * W (ix2 k j)) + ∑ k : Fin 1024, h (ix2 r k) * U (ix2 k j)) + b (ix1 j)

/-- The new cell state from the forget, input and candidate pre-activations and the old cell state. -/
def cellAt (f i g c : EReal) : EReal := Ideal.logistic f * c + Ideal.logistic i * Ideal.tanh g

/-- The new hidden state from the output gate's pre-activation and the new cell state. -/
def hidAt (o cn : EReal) : EReal := Ideal.logistic o * Ideal.tanh cn

/-- The twelve parameter arrays: per gate (forget, input, candidate, output) the input weights, the recurrent
    weights and the bias. -/
structure Params where
  Wf : Mat 1024 1024
  Uf : Mat 1024 1024
  bf : Vect 1024
  Wi : Mat 1024 1024
  Ui : Mat 1024 1024
  bi : Vect 1024
  Wc : Mat 1024 1024
  Uc : Mat 1024 1024
  bc : Vect 1024
  Wo : Mat 1024 1024
  Uo : Mat 1024 1024
  bo : Vect 1024

/-- The new cell state at (r, j). -/
def newC (x h c : Mat 4096 1024) (P : Params) (r : Fin 4096) (j : Fin 1024) : EReal :=
  cellAt (pre x h P.Wf P.Uf P.bf r j) (pre x h P.Wi P.Ui P.bi r j) (pre x h P.Wc P.Uc P.bc r j) (c (ix2 r j))

/-- The new hidden state at (r, j). -/
def newH (x h c : Mat 4096 1024) (P : Params) (r : Fin 4096) (j : Fin 1024) : EReal :=
  hidAt (pre x h P.Wo P.Uo P.bo r j) (newC x h c P r j)

/-- The new cell state as a whole array. -/
def cOut (x h c : Mat 4096 1024) (P : Params) : Mat 4096 1024 := fun i => newC x h c P (i 0) (i 1)

/-- The new hidden state as a whole array. -/
def hOut (x h c : Mat 4096 1024) (P : Params) : Mat 4096 1024 := fun i => newH x h c P (i 0) (i 1)

/-- A gate's pre-activation at row p of a 256-row band, column q, from the band's rows of x and h, the stacked weights
    `v` (rows 0..1023 the input weights, rows 1024..2047 the recurrent weights) and a one-row bias. -/
def blkGate (x h : Mat 256 1024) (v : Mat 2048 1024) (b : Mat 1 1024) (p : Fin 256) (q : Fin 1024) : EReal :=
  ((∑ k : Fin 1024, x (ix2 p k) * v (ix2 (⟨k.val, by omega⟩ : Fin 2048) q))
    + ∑ k : Fin 1024, h (ix2 p k) * v (ix2 (⟨1024 + k.val, by omega⟩ : Fin 2048) q)) + b (ix2 (0 : Fin 1) q)

/-- The band form is the whole-array form when the band's rows, the stacked weights' column and the bias entry are
    the whole arrays' entries. -/
theorem blkGate_eq_pre (xb hb : Mat 256 1024) (v : Mat 2048 1024) (b : Mat 1 1024) (p : Fin 256) (q : Fin 1024)
    (x h : Mat 4096 1024) (W U : Mat 1024 1024) (bb : Vect 1024) (r : Fin 4096) (j : Fin 1024)
    (hx : ∀ k : Fin 1024, xb (ix2 p k) = x (ix2 r k)) (hh : ∀ k : Fin 1024, hb (ix2 p k) = h (ix2 r k))
    (hW : ∀ k : Fin 1024, v (ix2 (⟨k.val, by omega⟩ : Fin 2048) q) = W (ix2 k j))
    (hU : ∀ k : Fin 1024, v (ix2 (⟨1024 + k.val, by omega⟩ : Fin 2048) q) = U (ix2 k j))
    (hbias : b (ix2 (0 : Fin 1) q) = bb (ix1 j)) :
    blkGate xb hb v b p q = pre x h W U bb r j := by
  unfold blkGate pre
  rw [hbias]
  simp only [hx, hh, hW, hU]

end Cert.Lstm

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.LibSageLayer.lean ====
/-
  One layer of a graph network with mean aggregation, over the extended reals: the pieces its two spellings share.

  The layer's entry (p, q) is  max( x(p,·)·ws(·,q) + bs(q) + nei(p,·)·wn(·,q) + bn(q), 0 ).
  One spelling forms the two products separately and adds the biases one at a time. The other lays x and nei side by
  side along the columns, stacks ws on wn along the rows, forms ONE product over the doubled axis and adds bs + bn.

  * `entry_eq`: the two spellings agree. A sum over an axis of length K + K is the sum over its first K positions plus
    the sum over its last K; the rest is commutativity and associativity of addition, which hold on all extended reals
    (no entry need be finite).
  * `cat_cols_left` / `cat_cols_right`, `cat_rows_left` / `cat_rows_right`: a two-piece concatenation of matrices read at
    an entry of either piece, along the columns and along the rows.
  * `dotGeneral_rows_cols`: a host matrix product [A, K] · [K, B] read at (p, q) is ∑ k, L(p,k) · R(k,q), for any
    dimension record whose index facts are supplied.
-/
import Idealize.ShloMosaic.Lib.ValueIdx
import Idealize.ShloMosaic.Lib.Pipeline.Value
import Idealize.ShloMosaic.PureOps.Ideal.Laws

noncomputable section

namespace Cert.SageLayer

open Idealize.ShloMosaic Idealize.ShloMosaic.ValueIdx

/-- The concatenated spelling of one entry equals the separate one. `cr` is a row of the side-by-side matrix (its
    first K entries the row `xr` of x, its last K the row `nr` of nei), `wq` a column of the stacked weights (first K
    entries the column `wsq` of ws, last K the column `wnq` of wn). -/
theorem entry_eq {K K2 : ℕ} (hK : K2 = K + K) (cr wq : Fin K2 → EReal) (xr nr wsq wnq : Fin K → EReal)
    (hcl : ∀ k : Fin K, cr ⟨k.val, by omega⟩ = xr k) (hcr : ∀ k : Fin K, cr ⟨K + k.val, by omega⟩ = nr k)
    (hwl : ∀ k : Fin K, wq ⟨k.val, by omega⟩ = wsq k) (hwr : ∀ k : Fin K, wq ⟨K + k.val, by omega⟩ = wnq k)
    (bs bn : EReal) :
    max ((∑ k, cr k * wq k) + (bs + bn)) 0
      = max ((((∑ k, xr k * wsq k) + bs) + ∑ k, nr k * wnq k) + bn) 0 := by
  subst hK
  -- the doubled axis splits into its two halves
  rw [Fin.sum_univ_add]
  have h1 : ∀ k : Fin K, cr (Fin.castAdd K k) * wq (Fin.castAdd K k) = xr k * wsq k := fun k => by
    rw [← hcl k, ← hwl k]; rfl
  have h2 : ∀ k : Fin K, cr (Fin.natAdd K k) * wq (Fin.natAdd K k) = nr k * wnq k := fun k => by
    rw [← hcr k, ← hwr k]; rfl
  simp only [h1, h2]
  -- (a + b) + (s + n) = ((a + s) + b) + n
  rw [add_add_add_comm, ← add_assoc]

/-- Row `r` of two [A, K] matrices laid side by side, as a function of the column: the first matrix's row on the first
    K columns, the second's on the next K. -/
def catRow {A K K2 : ℕ} (X NEI : (⟨2, ![A, K]⟩ : Shape).Idx → EReal) (r : Fin A) (k : Fin K2) : EReal :=
  if h : k.val < K then X (ix2 r ⟨k.val, h⟩) else if h2 : k.val - K < K then NEI (ix2 r ⟨k.val - K, h2⟩) else 0

theorem catRow_left {A K K2 : ℕ} (X NEI : (⟨2, ![A, K]⟩ : Shape).Idx → EReal) (r : Fin A) (k : Fin K) (hk : k.val < K2) :
    catRow X NEI r (⟨k.val, hk⟩ : Fin K2) = X (ix2 r k) := by
  unfold catRow; rw [dif_pos k.isLt]

theorem catRow_right {A K K2 : ℕ} (X NEI : (⟨2, ![A, K]⟩ : Shape).Idx → EReal) (r : Fin A) (k : Fin K) (hk : K + k.val < K2) :
    catRow X NEI r (⟨K + k.val, hk⟩ : Fin K2) = NEI (ix2 r k) := by
  unfold catRow
  have h1 : ¬ (K + k.val < K) := by omega
  have h2 : K + k.val - K < K := by have := k.isLt; omega
  rw [dif_neg h1, dif_pos h2]
  exact congrArg (fun z => NEI (ix2 r z)) (Fin.ext (by show K + k.val - K = k.val; omega))

/-- Entry (p, q) of the layer in its concatenated spelling: the side-by-side row p against column q of a [K2, M]
    matrix, plus entry q of a bias vector, and the maximum of that with zero. -/
def denseEntry {A K K2 M : ℕ} (X NEI : (⟨2, ![A, K]⟩ : Shape).Idx → EReal) (W : (⟨2, ![K2, M]⟩ : Shape).Idx → EReal)
    (B : (⟨1, ![M]⟩ : Shape).Idx → EReal) (p : Fin A) (q : Fin M) : EReal :=
  max ((∑ k : Fin K2, catRow X NEI p k * W (ix2 k q)) + B (ix1 q)) 0

/-- The layer in its concatenated spelling, as one function of whole arrays. -/
def dense {A K K2 M : ℕ} (X NEI : (⟨2, ![A, K]⟩ : Shape).Idx → EReal) (W : (⟨2, ![K2, M]⟩ : Shape).Idx → EReal)
    (B : (⟨1, ![M]⟩ : Shape).Idx → EReal) : (⟨2, ![A, M]⟩ : Shape).Idx → EReal :=
  fun i => denseEntry X NEI W B (i 0) (i 1)

/-- An entry depends only on row p of the two feature matrices, column q of the weights and entry q of the bias: two
    settings that agree on those (possibly at different row and column numbers, as a block and the array it is cut
    from do) have the same entry. -/
theorem denseEntry_congr {A A' K K2 M M' : ℕ}
    (X NEI : (⟨2, ![A, K]⟩ : Shape).Idx → EReal) (W : (⟨2, ![K2, M]⟩ : Shape).Idx → EReal) (B : (⟨1, ![M]⟩ : Shape).Idx → EReal)
    (X' NEI' : (⟨2, ![A', K]⟩ : Shape).Idx → EReal) (W' : (⟨2, ![K2, M']⟩ : Shape).Idx → EReal) (B' : (⟨1, ![M']⟩ : Shape).Idx → EReal)
    (p : Fin A) (q : Fin M) (p' : Fin A') (q' : Fin M')
    (hX : ∀ k : Fin K, X (ix2 p k) = X' (ix2 p' k)) (hN : ∀ k : Fin K, NEI (ix2 p k) = NEI' (ix2 p' k))
    (hW : ∀ k : Fin K2, W (ix2 k q) = W' (ix2 k q')) (hB : B (ix1 q) = B' (ix1 q')) :
    denseEntry X NEI W B p q = denseEntry X' NEI' W' B' p' q' := by
  unfold denseEntry
  rw [hB]
  refine congrArg (fun s => max (s + B' (ix1 q')) 0) (Finset.sum_congr rfl fun k _ => ?_)
  rw [hW k]
  refine congrArg (· * W' (ix2 k q')) ?_
  unfold catRow
  split
  · exact hX _
  · split
    · exact hN _
    · rfl

variable {α : Type}

/-- Two [A, K] matrices side by side: a column below K reads the first. -/
theorem cat_cols_left {A K K2 : ℕ} (x₁ x₂ : (⟨2, ![A, K]⟩ : Shape).Idx → α)
    (h : Shape.Concatenates [(⟨2, ![A, K]⟩ : Shape), ⟨2, ![A, K]⟩] ⟨2, ![A, K2]⟩ (1 : Fin 2)) (p : Fin A) (k : Fin K)
    (hk : k.val < K2) :
    concatenate ⟨2, ![A, K2]⟩ (1 : Fin 2) [⟨⟨2, ![A, K]⟩, x₁⟩, ⟨⟨2, ![A, K]⟩, x₂⟩] h (ix2 p ⟨k.val, hk⟩) = x₁ (ix2 p k) :=
  concatenate_pair_apply_left (t := ⟨2, ![A, K2]⟩) (1 : Fin 2) x₁ x₂ h (ix2 p ⟨k.val, hk⟩) rfl (ix2 p k) fun b => by
    match b with
    | ⟨0, _⟩ => rfl
    | ⟨1, _⟩ => rfl

/-- Two [A, K] matrices side by side: column K + k reads the second at column k. -/
theorem cat_cols_right {A K K2 : ℕ} (x₁ x₂ : (⟨2, ![A, K]⟩ : Shape).Idx → α)
    (h : Shape.Concatenates [(⟨2, ![A, K]⟩ : Shape), ⟨2, ![A, K]⟩] ⟨2, ![A, K2]⟩ (1 : Fin 2)) (p : Fin A) (k : Fin K)
    (hk : K + k.val < K2) :
    concatenate ⟨2, ![A, K2]⟩ (1 : Fin 2) [⟨⟨2, ![A, K]⟩, x₁⟩, ⟨⟨2, ![A, K]⟩, x₂⟩] h (ix2 p ⟨K + k.val, hk⟩) = x₂ (ix2 p k) :=
  concatenate_pair_apply_right (t := ⟨2, ![A, K2]⟩) (1 : Fin 2) x₁ x₂ h (ix2 p ⟨K + k.val, hk⟩) rfl rfl (ix2 p k)
    (fun b hb => by
      match b with
      | ⟨0, _⟩ => rfl
      | ⟨1, _⟩ => exact absurd rfl hb)
    (by show k.val + K = K + k.val; omega)

/-- Two [K, M] matrices one above the other: a row below K reads the first. -/
theorem cat_rows_left {K K2 M : ℕ} (x₁ x₂ : (⟨2, ![K, M]⟩ : Shape).Idx → α)
    (h : Shape.Concatenates [(⟨2, ![K, M]⟩ : Shape), ⟨2, ![K, M]⟩] ⟨2, ![K2, M]⟩ (0 : Fin 2)) (k : Fin K) (q : Fin M)
    (hk : k.val < K2) :
    concatenate ⟨2, ![K2, M]⟩ (0 : Fin 2) [⟨⟨2, ![K, M]⟩, x₁⟩, ⟨⟨2, ![K, M]⟩, x₂⟩] h (ix2 ⟨k.val, hk⟩ q) = x₁ (ix2 k q) :=
  concatenate_pair_apply_left (t := ⟨2, ![K2, M]⟩) (0 : Fin 2) x₁ x₂ h (ix2 ⟨k.val, hk⟩ q) rfl (ix2 k q) fun b => by
    match b with
    | ⟨0, _⟩ => rfl
    | ⟨1, _⟩ => rfl

/-- Two [K, M] matrices one above the other: row K + k reads the second at row k. -/
theorem cat_rows_right {K K2 M : ℕ} (x₁ x₂ : (⟨2, ![K, M]⟩ : Shape).Idx → α)
    (h : Shape.Concatenates [(⟨2, ![K, M]⟩ : Shape), ⟨2, ![K, M]⟩] ⟨2, ![K2, M]⟩ (0 : Fin 2)) (k : Fin K) (q : Fin M)
    (hk : K + k.val < K2) :
    concatenate ⟨2, ![K2, M]⟩ (0 : Fin 2) [⟨⟨2, ![K, M]⟩, x₁⟩, ⟨⟨2, ![K, M]⟩, x₂⟩] h (ix2 ⟨K + k.val, hk⟩ q) = x₂ (ix2 k q) :=
  concatenate_pair_apply_right (t := ⟨2, ![K2, M]⟩) (0 : Fin 2) x₁ x₂ h (ix2 ⟨K + k.val, hk⟩ q) rfl rfl (ix2 k q)
    (fun b hb => by
      match b with
      | ⟨0, _⟩ => exact absurd rfl hb
      | ⟨1, _⟩ => rfl)
    (by show k.val + K = K + k.val; omega)

/-- A concatenation of two [A, K] matrices along the columns, read at (p, k), is the side-by-side row. -/
theorem cat_cols_eq_catRow {A K K2 : ℕ} (hK : K2 = K + K) (x₁ x₂ : (⟨2, ![A, K]⟩ : Shape).Idx → EReal)
    (h : Shape.Concatenates [(⟨2, ![A, K]⟩ : Shape), ⟨2, ![A, K]⟩] ⟨2, ![A, K2]⟩ (1 : Fin 2)) (p : Fin A) (k : Fin K2) :
    concatenate ⟨2, ![A, K2]⟩ (1 : Fin 2) [⟨⟨2, ![A, K]⟩, x₁⟩, ⟨⟨2, ![A, K]⟩, x₂⟩] h (ix2 p k) = catRow x₁ x₂ p k := by
  by_cases hk : k.val < K
  · have e : k = ⟨(⟨k.val, hk⟩ : Fin K).val, k.isLt⟩ := rfl
    rw [e, cat_cols_left x₁ x₂ h p ⟨k.val, hk⟩ k.isLt, catRow_left x₁ x₂ p ⟨k.val, hk⟩ k.isLt]
  · have hk2 : k.val - K < K := by have := k.isLt; omega
    have hlt : K + (⟨k.val - K, hk2⟩ : Fin K).val < K2 := by show K + (k.val - K) < K2; have := k.isLt; omega
    have e : k = ⟨K + (⟨k.val - K, hk2⟩ : Fin K).val, hlt⟩ := Fin.ext (by show k.val = K + (k.val - K); omega)
    rw [e, cat_cols_right x₁ x₂ h p ⟨k.val - K, hk2⟩ hlt, catRow_right x₁ x₂ p ⟨k.val - K, hk2⟩ hlt]

/-- A host matrix product read at (p, q): the sum over the contracted axis of the left operand's row p times the
    right operand's column q. -/
theorem dotGeneral_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    Host.dotGeneral d prec L R (ix2 p q) = ∑ k : Fin K, L (ix2 p k) * R (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.SageLayer

end
-- ==== Proof.LibCatCols.lean ====
/-
  Matrices joined along their columns, read at an entry, and sums over the joined axis.

  Two or three [A, K] matrices side by side form an [A, 2K] or [A, 3K] matrix whose entry (p, k) is the first
  matrix's (p, k) for k < K, the second's (p, k - K) for K ≤ k < 2K, the third's (p, k - 2K) beyond. A sum over the
  joined axis is therefore the sum of the pieces' sums.
-/
import Idealize.ShloMosaic.Lib.ValueIdx
import Idealize.ShloMosaic.Lib.Pipeline.Value
import proofs.«157185_j71957882077215_2_alg».proof.Proof.LibSageLayer

noncomputable section

namespace Cert.CatCols

open Idealize.ShloMosaic Idealize.ShloMosaic.ValueIdx

variable {α : Type}

/-- Two matrices side by side, at column k: the first below K, the second at k - K from K on. -/
theorem cat2_apply {A K K2 : ℕ} (hK : K2 = K + K) (x₁ x₂ : (⟨2, ![A, K]⟩ : Shape).Idx → α)
    (h : Shape.Concatenates [(⟨2, ![A, K]⟩ : Shape), ⟨2, ![A, K]⟩] ⟨2, ![A, K2]⟩ (1 : Fin 2)) (p : Fin A) (k : Fin K2) :
    concatenate ⟨2, ![A, K2]⟩ (1 : Fin 2) [⟨⟨2, ![A, K]⟩, x₁⟩, ⟨⟨2, ![A, K]⟩, x₂⟩] h (ix2 p k)
      = if hk : k.val < K then x₁ (ix2 p ⟨k.val, hk⟩) else x₂ (ix2 p ⟨k.val - K, by omega⟩) := by
  by_cases hk : k.val < K
  · rw [dif_pos hk]
    exact Cert.SageLayer.cat_cols_left x₁ x₂ h p ⟨k.val, hk⟩ k.isLt
  · rw [dif_neg hk]
    have hlt : K + (k.val - K) < K2 := by omega
    have e : (⟨K + (k.val - K), hlt⟩ : Fin K2) = k := Fin.ext (by show K + (k.val - K) = k.val; omega)
    have := Cert.SageLayer.cat_cols_right x₁ x₂ h p ⟨k.val - K, by omega⟩ hlt
    rw [e] at this
    exact this

/-- Three matrices side by side, at column k. -/
theorem cat3_apply {A K K3 : ℕ} (hK : K3 = K + K + K) (x₁ x₂ x₃ : (⟨2, ![A, K]⟩ : Shape).Idx → α)
    (h : Shape.Concatenates [(⟨2, ![A, K]⟩ : Shape), ⟨2, ![A, K]⟩, ⟨2, ![A, K]⟩] ⟨2, ![A, K3]⟩ (1 : Fin 2)) (p : Fin A) (k : Fin K3) :
    concatenate ⟨2, ![A, K3]⟩ (1 : Fin 2) [⟨⟨2, ![A, K]⟩, x₁⟩, ⟨⟨2, ![A, K]⟩, x₂⟩, ⟨⟨2, ![A, K]⟩, x₃⟩] h (ix2 p k)
      = if hk : k.val < K then x₁ (ix2 p ⟨k.val, hk⟩)
        else if hk2 : k.val < K + K then x₂ (ix2 p ⟨k.val - K, by omega⟩)
        else x₃ (ix2 p ⟨k.val - (K + K), by omega⟩) := by
  by_cases hk : k.val < K
  · rw [dif_pos hk]
    refine concatenate_apply_piece (t := ⟨2, ![A, K3]⟩) (1 : Fin 2) [⟨⟨2, ![A, K]⟩, x₁⟩, ⟨⟨2, ![A, K]⟩, x₂⟩, ⟨⟨2, ![A, K]⟩, x₃⟩] h (ix2 p k) 0 (by simp) ⟨2, ![A, K]⟩ x₁ rfl rfl 0 rfl
      (ix2 p ⟨k.val, hk⟩) (fun b hb => ?_) ?_
    · match b with
      | ⟨0, _⟩ => rfl
      | ⟨1, _⟩ => exact absurd rfl hb
    · show 0 + k.val = k.val; omega
  · rw [dif_neg hk]
    by_cases hk2 : k.val < K + K
    · rw [dif_pos hk2]
      refine concatenate_apply_piece (t := ⟨2, ![A, K3]⟩) (1 : Fin 2) [⟨⟨2, ![A, K]⟩, x₁⟩, ⟨⟨2, ![A, K]⟩, x₂⟩, ⟨⟨2, ![A, K]⟩, x₃⟩] h (ix2 p k) 1 (by simp) ⟨2, ![A, K]⟩ x₂ rfl rfl K ?_
        (ix2 p ⟨k.val - K, by omega⟩) (fun b hb => ?_) ?_
      · simp
      · match b with
        | ⟨0, _⟩ => rfl
        | ⟨1, _⟩ => exact absurd rfl hb
      · show K + (k.val - K) = k.val; omega
    · rw [dif_neg hk2]
      refine concatenate_apply_piece (t := ⟨2, ![A, K3]⟩) (1 : Fin 2) [⟨⟨2, ![A, K]⟩, x₁⟩, ⟨⟨2, ![A, K]⟩, x₂⟩, ⟨⟨2, ![A, K]⟩, x₃⟩] h (ix2 p k) 2 (by simp) ⟨2, ![A, K]⟩ x₃ rfl rfl (K + K) ?_
        (ix2 p ⟨k.val - (K + K), by omega⟩) (fun b hb => ?_) ?_
      · simp
      · match b with
        | ⟨0, _⟩ => rfl
        | ⟨1, _⟩ => exact absurd rfl hb
      · show K + K + (k.val - (K + K)) = k.val; omega

/-- A sum over a doubled axis is the sum over its two halves. -/
theorem sum_two {M : Type} [AddCommMonoid M] {K K2 : ℕ} (hK : K2 = K + K) (f : Fin K2 → M) :
    ∑ k : Fin K2, f k = (∑ k : Fin K, f ⟨k.val, by omega⟩) + (∑ k : Fin K, f ⟨K + k.val, by omega⟩) := by
  subst hK
  exact Fin.sum_univ_add f

/-- A sum over a tripled axis is the sum over its three thirds. -/
theorem sum_three {M : Type} [AddCommMonoid M] {K K3 : ℕ} (hK : K3 = K + K + K) (f : Fin K3 → M) :
    ∑ k : Fin K3, f k
      = ((∑ k : Fin K, f ⟨k.val, by omega⟩) + (∑ k : Fin K, f ⟨K + k.val, by omega⟩)) + (∑ k : Fin K, f ⟨K + K + k.val, by omega⟩) := by
  subst hK
  rw [Fin.sum_univ_add f, Fin.sum_univ_add (fun i : Fin (K + K) => f (Fin.castAdd K i))]
  rfl

end Cert.CatCols

end
-- ==== Proof.Payload.lean ====
/-
  The kernel body's arithmetic, read at one entry of a 256-row band.

  The body joins the band's rows of x and of h along the columns into a [256, 2048] matrix xh, and for each gate
  multiplies xh by a [2048, 1024] slice of the stacked weights into a zero accumulator and adds a [1, 1024] slice of
  the bias row broadcast down the rows. At entry (p, q) that is
      (∑ k < 1024, x(p,k) · v(k,q)) + (∑ k < 1024, h(p,k) · v(1024 + k, q)) + b(0,q),
  the specification's band form `blkGate` of a gate's pre-activation: the sum over the joined axis of length 2048 is
  the sum over its first 1024 positions, where xh is x, plus the sum over its last 1024, where xh is h. A change of
  float format is the identity on extended reals, and so is a shape cast between equal shapes.

  With f, i, g the pre-activations of the forget, input and candidate gates, the new cell state at (p, q) is
  σ(f) · c(p,q) + σ(i) · tanh(g) (`pay3_apply`), and with o the output gate's pre-activation and cn the new cell
  state the new hidden state is σ(o) · tanh(cn) (`pay1_apply`).
-/
import proofs.«157185_j71957882077215_2_alg».proof.Proof.Gen.KernelIdeal.Skeleton
import proofs.«157185_j71957882077215_2_alg».proof.Proof.Spec
import proofs.«157185_j71957882077215_2_alg».proof.Proof.LibDenseLayer
import proofs.«157185_j71957882077215_2_alg».proof.Proof.LibSageLayer
import proofs.«157185_j71957882077215_2_alg».proof.Proof.LibCatCols
import Idealize.ShloMosaic.Lib.ValueIdx
import Idealize.ShloMosaic.Lib.Pipeline.Value
import Idealize.ShloMosaic.Lib.ValueLayout
import Idealize.ShloMosaic.PureOps.Ideal.Laws

noncomputable section

namespace Cert.Lstm.Pay

open Cert.KernelIdeal Cert.KernelIdeal.Gen Idealize.ShloMosaic Idealize.ShloMosaic.ValueIdx Cert.Lstm

/-! ## The matrix product's dimension record: which operand entries meet at an output entry -/

/-- The left operand's row is the output's row. -/
theorem dot_lhs_row (i : S256x1024.Idx) (t : dot_S256x2048_S2048x1024_S256x1024_1_0_0_1_n_n.contr.Idx) :
    (dot_S256x2048_S2048x1024_S256x1024_1_0_0_1_n_n.lhsIdx i t 0).val = (i 0).val := by
  unfold DotDims.lhsIdx
  rw [dif_neg (show ¬(0 : Fin S256x2048.rank) ∈ dot_S256x2048_S2048x1024_S256x1024_1_0_0_1_n_n.lhsBatch by decide),
    dif_pos (show (0 : Fin S256x2048.rank) ∈ dot_S256x2048_S2048x1024_S256x1024_1_0_0_1_n_n.lhsNonContracting by decide)]
  rfl

/-- The left operand's column is the contraction position. -/
theorem dot_lhs_col (i : S256x1024.Idx) (t : dot_S256x2048_S2048x1024_S256x1024_1_0_0_1_n_n.contr.Idx) :
    (dot_S256x2048_S2048x1024_S256x1024_1_0_0_1_n_n.lhsIdx i t 1).val = (t ⟨0, by decide⟩).val :=
  dot_S256x2048_S2048x1024_S256x1024_1_0_0_1_n_n.lhsIdx_val_of_single rfl i t

/-- The right operand's row is the contraction position. -/
theorem dot_rhs_row (i : S256x1024.Idx) (t : dot_S256x2048_S2048x1024_S256x1024_1_0_0_1_n_n.contr.Idx) :
    (dot_S256x2048_S2048x1024_S256x1024_1_0_0_1_n_n.rhsIdx i t 0).val = (t ⟨0, by decide⟩).val :=
  dot_S256x2048_S2048x1024_S256x1024_1_0_0_1_n_n.rhsIdx_val_of_single rfl i t

/-- The right operand's column is the output's column. -/
theorem dot_rhs_col (i : S256x1024.Idx) (t : dot_S256x2048_S2048x1024_S256x1024_1_0_0_1_n_n.contr.Idx) :
    (dot_S256x2048_S2048x1024_S256x1024_1_0_0_1_n_n.rhsIdx i t 1).val = (i 1).val := by
  unfold DotDims.rhsIdx
  rw [dif_neg (show ¬(1 : Fin S2048x1024.rank) ∈ dot_S256x2048_S2048x1024_S256x1024_1_0_0_1_n_n.rhsBatch by decide),
    dif_pos (show (1 : Fin S2048x1024.rank) ∈ dot_S256x2048_S2048x1024_S256x1024_1_0_0_1_n_n.rhsNonContracting by decide)]
  rfl

/-! ## The joined band xh = [x | h] -/

/-- Column k < 1024 of xh is column k of x. -/
theorem xh_left (v0 v2 : Vec Ideal S256x1024 .f32) (p : Fin 256) (k : Fin 1024) :
    k0_pay2 (F := Ideal) v0 v2 (ix2 p (⟨k.val, by omega⟩ : Fin 2048)) = v0 (ix2 p k) := by
  unfold k0_pay2
  exact Cert.SageLayer.cat_cols_left (truncf (F := Ideal) .bf16 (v0 : FVec Ideal S256x1024 .f32) bitsLt_bf16_f32) (truncf (F := Ideal) .bf16 (v2 : FVec Ideal S256x1024 .f32) bitsLt_bf16_f32)
    concatenates_S256x1024_S256x1024_S256x2048_d1 p k (by omega)

/-- Column 1024 + k of xh is column k of h. -/
theorem xh_right (v0 v2 : Vec Ideal S256x1024 .f32) (p : Fin 256) (k : Fin 1024) :
    k0_pay2 (F := Ideal) v0 v2 (ix2 p (⟨1024 + k.val, by omega⟩ : Fin 2048)) = v2 (ix2 p k) := by
  unfold k0_pay2
  exact Cert.SageLayer.cat_cols_right (truncf (F := Ideal) .bf16 (v0 : FVec Ideal S256x1024 .f32) bitsLt_bf16_f32) (truncf (F := Ideal) .bf16 (v2 : FVec Ideal S256x1024 .f32) bitsLt_bf16_f32)
    concatenates_S256x1024_S256x1024_S256x2048_d1 p k (by omega)

/-- xh at (p, k): x below column 1024, h at k - 1024 from there on. -/
theorem xh_apply (v0 v2 : Vec Ideal S256x1024 .f32) (p : Fin 256) (k : Fin 2048) :
    k0_pay2 (F := Ideal) v0 v2 (ix2 p k)
      = if hk : k.val < 1024 then v0 (ix2 p ⟨k.val, hk⟩) else v2 (ix2 p ⟨k.val - 1024, by omega⟩) := by
  unfold k0_pay2
  exact Cert.CatCols.cat2_apply (rfl : 2048 = 1024 + 1024) (truncf (F := Ideal) .bf16 (v0 : FVec Ideal S256x1024 .f32) bitsLt_bf16_f32)
    (truncf (F := Ideal) .bf16 (v2 : FVec Ideal S256x1024 .f32) bitsLt_bf16_f32) concatenates_S256x1024_S256x1024_S256x2048_d1 p k

/-! ## One gate's pre-activation -/

/-- xh times a weight slice into a zero accumulator, plus the bias slice broadcast down the rows, at (p, q): the
    gate's pre-activation in band form. -/
theorem gate_apply (v0 v2 : Vec Ideal S256x1024 .f32) (v : FVec Ideal S2048x1024 .bf16) (b : FVec Ideal S1x1024 .f32)
    (p : Fin 256) (q : Fin 1024) :
    addf (matmul dot_S256x2048_S2048x1024_S256x1024_1_0_0_1_n_n none (k0_pay2 (F := Ideal) v0 v2) v (constant (F := Ideal) S256x1024 .f32 0x00000000#32))
        (broadcastTo S256x1024 b broadcasts_S1x1024_S256x1024) (ix2 p q)
      = blkGate v0 v2 v b p q := by
  rw [addf_apply]
  unfold blkGate
  refine congrArg₂ (· + ·) ?_ (broadcastTo_1b_ab_apply b broadcasts_S1x1024_S256x1024 p q)
  refine (Cert.DenseLayer.matmul_rows_cols dot_S256x2048_S2048x1024_S256x1024_1_0_0_1_n_n rfl rfl dot_lhs_row dot_lhs_col dot_rhs_row dot_rhs_col none
    (k0_pay2 (F := Ideal) v0 v2) v p q).trans ?_
  refine (Cert.CatCols.sum_two (K := 1024) (K2 := 2048) rfl _).trans ?_
  refine congrArg₂ (· + ·) (Finset.sum_congr rfl fun k _ => ?_) (Finset.sum_congr rfl fun k _ => ?_)
  · exact congrArg (· * v (ix2 (⟨k.val, by omega⟩ : Fin 2048) q)) (xh_left v0 v2 p k)
  · exact congrArg (· * v (ix2 (⟨1024 + k.val, by omega⟩ : Fin 2048) q)) (xh_right v0 v2 p k)

/-! ## The two stored values -/

/-- The new cell state at (p, q). -/
theorem pay3_apply (v0 v2 v4 : Vec Ideal S256x1024 .f32) (v6 : Vec Ideal S2048x1024 .bf16) (v8 : Vec Ideal S1x1024 .f32)
    (v15 : Vec Ideal S2048x1024 .bf16) (v17 : Vec Ideal S1x1024 .f32) (v23 : Vec Ideal S2048x1024 .bf16)
    (v25 : Vec Ideal S1x1024 .f32) (p : Fin 256) (q : Fin 1024) :
    k0_pay3 (F := Ideal) v0 v2 v4 v6 v8 v15 v17 v23 v25 (ix2 p q)
      = cellAt (blkGate v0 v2 v6 v8 p q) (blkGate v0 v2 v15 v17 p q) (blkGate v0 v2 v23 v25 p q) (v4 (ix2 p q)) := by
  unfold k0_pay3 cellAt
  simp only [shapeCast_self]
  refine (addf_apply _ _ _).trans ?_
  refine congrArg₂ (· + ·)
    ((mulf_apply _ _ _).trans (congrArg₂ (· * ·) (congrArg Ideal.logistic (gate_apply v0 v2 v6 v8 p q)) rfl))
    ((mulf_apply _ _ _).trans (congrArg₂ (· * ·) (congrArg Ideal.logistic (gate_apply v0 v2 v15 v17 p q))
      (congrArg Ideal.tanh (gate_apply v0 v2 v23 v25 p q))))

/-- The new hidden state at (p, q), from the new cell state `v32`. -/
theorem pay1_apply (v0 v2 : Vec Ideal S256x1024 .f32) (v32 : FVec Ideal S256x1024 .f32) (v33 : Vec Ideal S2048x1024 .bf16)
    (v35 : Vec Ideal S1x1024 .f32) (p : Fin 256) (q : Fin 1024) :
    k0_pay1 (F := Ideal) (k0_pay2 v0 v2) v32 (k0_pay4 v33) v35 (ix2 p q)
      = hidAt (blkGate v0 v2 v33 v35 p q) (v32 (ix2 p q)) := by
  unfold k0_pay1 k0_pay4 hidAt
  simp only [shapeCast_self]
  refine (mulf_apply _ _ _).trans ?_
  exact congrArg₂ (· * ·) (congrArg Ideal.logistic (gate_apply v0 v2 v33 v35 p q)) rfl

end Cert.Lstm.Pay

end
-- ==== Proof.KIBand.lean ====
/-
  One entry of an output band is the specification's entry.

  Given that row p of the x and h bands is row r of x and h, that the c band's entry (p, q) is c's entry (r, q), and
  that the stacked weights' columns q, 1024 + q, 2048 + q, 3072 + q (and the bias row's entries there) are column q of
  the forget, input, candidate and output gates' parameters, the body's new cell state at (p, q) is the
  specification's at (r, q), and so is the new hidden state. A load of 1024 consecutive columns from column `off`
  reads column off + q at q.
-/
import proofs.«157185_j71957882077215_2_alg».proof.Proof.KIBlocks
import proofs.«157185_j71957882077215_2_alg».proof.Proof.Payload
import proofs.«157185_j71957882077215_2_alg».proof.Proof.Spec

set_option maxRecDepth 16384

noncomputable section

namespace Cert.KernelIdeal.Hand

open Cert.KernelIdeal Cert.KernelIdeal.Gen
open Idealize.ShloMosaic Idealize.ShloMosaic.ValueIdx Cert.Lstm

/-- Columns off … off + 1023 of the stacked weights, at (k, q): column off + q. -/
theorem ld_cols (x3 : Vec Ideal S2048x4096 .bf16) (off : ℕ)
    (inb : ∀ a, (![0, off] : Fin 2 → ℕ) a + S2048x1024.size a ≤ S2048x4096.size a)
    (k : Fin 2048) (q : Fin 1024) (hq : off + q.val < 4096) :
    View.ld x3 (Rect.unit (s := S2048x4096) ![0, off] S2048x1024.size inb) (ix2 k q) = x3 (ix2 k (⟨off + q.val, hq⟩ : Fin 4096)) := by
  show x3 _ = x3 _
  refine congrArg x3 (funext fun a => Fin.ext ?_)
  match a with
  | ⟨0, _⟩ => show 0 + 1 * k.val = k.val; omega
  | ⟨1, _⟩ => show off + 1 * q.val = off + q.val; omega

/-- Entries off … off + 1023 of the bias row, at q: entry off + q. -/
theorem ld_bias (x4 : Vec Ideal S1x4096 .f32) (off : ℕ)
    (inb : ∀ a, (![0, off] : Fin 2 → ℕ) a + S1x1024.size a ≤ S1x4096.size a)
    (z : Fin 1) (q : Fin 1024) (hq : off + q.val < 4096) :
    View.ld x4 (Rect.unit (s := S1x4096) ![0, off] S1x1024.size inb) (ix2 z q) = x4 (ix2 z (⟨off + q.val, hq⟩ : Fin 4096)) := by
  show x4 _ = x4 _
  refine congrArg x4 (funext fun a => Fin.ext ?_)
  match a with
  | ⟨0, _⟩ => show 0 + 1 * z.val = z.val; omega
  | ⟨1, _⟩ => show off + 1 * q.val = off + q.val; omega

/-- One gate's pre-activation in a band is the whole-array pre-activation of the gate whose parameters sit at
    columns off … off + 1023. -/
theorem band_gate (x0 x1 : Vec Ideal S256x1024 .f32) (x3 : Vec Ideal S2048x4096 .bf16) (x4 : Vec Ideal S1x4096 .f32)
    (off : ℕ) (hoff : off + 1024 ≤ 4096)
    (inbV : ∀ a, (![0, off] : Fin 2 → ℕ) a + S2048x1024.size a ≤ S2048x4096.size a)
    (inbB : ∀ a, (![0, off] : Fin 2 → ℕ) a + S1x1024.size a ≤ S1x4096.size a)
    (X H : Mat 4096 1024) (W U : Mat 1024 1024) (b : Vect 1024) (r : Fin 4096) (p : Fin 256) (q : Fin 1024)
    (h0 : ∀ k : Fin 1024, x0 (ix2 p k) = X (ix2 r k)) (h1 : ∀ k : Fin 1024, x1 (ix2 p k) = H (ix2 r k))
    (hW : ∀ k : Fin 1024, x3 (ix2 (⟨k.val, by omega⟩ : Fin 2048) (⟨off + q.val, by omega⟩ : Fin 4096)) = W (ix2 k q))
    (hU : ∀ k : Fin 1024, x3 (ix2 (⟨1024 + k.val, by omega⟩ : Fin 2048) (⟨off + q.val, by omega⟩ : Fin 4096)) = U (ix2 k q))
    (hb : x4 (ix2 (0 : Fin 1) (⟨off + q.val, by omega⟩ : Fin 4096)) = b (ix1 q)) :
    blkGate x0 x1 (View.ld x3 (Rect.unit (s := S2048x4096) ![0, off] S2048x1024.size inbV))
      (View.ld x4 (Rect.unit (s := S1x4096) ![0, off] S1x1024.size inbB)) p q = pre X H W U b r q :=
  blkGate_eq_pre x0 x1 _ _ p q X H W U b r q h0 h1
    (fun k => (ld_cols x3 off inbV _ q (by omega)).trans (hW k))
    (fun k => (ld_cols x3 off inbV _ q (by omega)).trans (hU k))
    ((ld_bias x4 off inbB 0 q (by omega)).trans hb)

/-- The body's new cell state at (p, q) of a band is the specification's at (r, q). -/
theorem band_cell (x0 x1 x2 : Vec Ideal S256x1024 .f32) (x3 : Vec Ideal S2048x4096 .bf16) (x4 : Vec Ideal S1x4096 .f32)
    (X H C : Mat 4096 1024) (P : Params) (r : Fin 4096) (p : Fin 256) (q : Fin 1024)
    (h0 : ∀ k : Fin 1024, x0 (ix2 p k) = X (ix2 r k)) (h1 : ∀ k : Fin 1024, x1 (ix2 p k) = H (ix2 r k))
    (h2 : x2 (ix2 p q) = C (ix2 r q))
    (hWf : ∀ k : Fin 1024, x3 (ix2 (⟨k.val, by omega⟩ : Fin 2048) (⟨0 + q.val, by omega⟩ : Fin 4096)) = P.Wf (ix2 k q))
    (hUf : ∀ k : Fin 1024, x3 (ix2 (⟨1024 + k.val, by omega⟩ : Fin 2048) (⟨0 + q.val, by omega⟩ : Fin 4096)) = P.Uf (ix2 k q))
    (hbf : x4 (ix2 (0 : Fin 1) (⟨0 + q.val, by omega⟩ : Fin 4096)) = P.bf (ix1 q))
    (hWi : ∀ k : Fin 1024, x3 (ix2 (⟨k.val, by omega⟩ : Fin 2048) (⟨1024 + q.val, by omega⟩ : Fin 4096)) = P.Wi (ix2 k q))
    (hUi : ∀ k : Fin 1024, x3 (ix2 (⟨1024 + k.val, by omega⟩ : Fin 2048) (⟨1024 + q.val, by omega⟩ : Fin 4096)) = P.Ui (ix2 k q))
    (hbi : x4 (ix2 (0 : Fin 1) (⟨1024 + q.val, by omega⟩ : Fin 4096)) = P.bi (ix1 q))
    (hWc : ∀ k : Fin 1024, x3 (ix2 (⟨k.val, by omega⟩ : Fin 2048) (⟨2048 + q.val, by omega⟩ : Fin 4096)) = P.Wc (ix2 k q))
    (hUc : ∀ k : Fin 1024, x3 (ix2 (⟨1024 + k.val, by omega⟩ : Fin 2048) (⟨2048 + q.val, by omega⟩ : Fin 4096)) = P.Uc (ix2 k q))
    (hbc : x4 (ix2 (0 : Fin 1) (⟨2048 + q.val, by omega⟩ : Fin 4096)) = P.bc (ix1 q)) :
    cellOf5 x0 x1 x2 x3 x4 (ix2 p q) = newC X H C P r q := by
  unfold cellOf5
  simp only [View.ld_unit_zero (S := S256x1024) hz]
  refine (Cert.Lstm.Pay.pay3_apply x0 x1 x2 (View.ld x3 rV0) (View.ld x4 rB0) (View.ld x3 rV1) (View.ld x4 rB1)
    (View.ld x3 rV2) (View.ld x4 rB2) p q).trans ?_
  have g0 := band_gate x0 x1 x3 x4 0 (by omega) inb_S2048x4096_S2048x1024_0_0 inb_S1x4096_S1x1024_0_0 X H P.Wf P.Uf P.bf r p q h0 h1 hWf hUf hbf
  have g1 := band_gate x0 x1 x3 x4 1024 (by omega) inb_S2048x4096_S2048x1024_0_1024 inb_S1x4096_S1x1024_0_1024 X H P.Wi P.Ui P.bi r p q h0 h1 hWi hUi hbi
  have g2 := band_gate x0 x1 x3 x4 2048 (by omega) inb_S2048x4096_S2048x1024_0_2048 inb_S1x4096_S1x1024_0_2048 X H P.Wc P.Uc P.bc r p q h0 h1 hWc hUc hbc
  unfold newC
  rw [← g0, ← g1, ← g2, ← h2]

/-- Window 6's buffer after the body, at (p, q). -/
theorem band_c (x0 x1 x2 : Vec Ideal S256x1024 .f32) (x3 : Vec Ideal S2048x4096 .bf16) (x4 : Vec Ideal S1x4096 .f32)
    (X H C : Mat 4096 1024) (P : Params) (r : Fin 4096) (p : Fin 256) (q : Fin 1024)
    (h0 : ∀ k : Fin 1024, x0 (ix2 p k) = X (ix2 r k)) (h1 : ∀ k : Fin 1024, x1 (ix2 p k) = H (ix2 r k))
    (h2 : x2 (ix2 p q) = C (ix2 r q))
    (hWf : ∀ k : Fin 1024, x3 (ix2 (⟨k.val, by omega⟩ : Fin 2048) (⟨0 + q.val, by omega⟩ : Fin 4096)) = P.Wf (ix2 k q))
    (hUf : ∀ k : Fin 1024, x3 (ix2 (⟨1024 + k.val, by omega⟩ : Fin 2048) (⟨0 + q.val, by omega⟩ : Fin 4096)) = P.Uf (ix2 k q))
    (hbf : x4 (ix2 (0 : Fin 1) (⟨0 + q.val, by omega⟩ : Fin 4096)) = P.bf (ix1 q))
    (hWi : ∀ k : Fin 1024, x3 (ix2 (⟨k.val, by omega⟩ : Fin 2048) (⟨1024 + q.val, by omega⟩ : Fin 4096)) = P.Wi (ix2 k q))
    (hUi : ∀ k : Fin 1024, x3 (ix2 (⟨1024 + k.val, by omega⟩ : Fin 2048) (⟨1024 + q.val, by omega⟩ : Fin 4096)) = P.Ui (ix2 k q))
    (hbi : x4 (ix2 (0 : Fin 1) (⟨1024 + q.val, by omega⟩ : Fin 4096)) = P.bi (ix1 q))
    (hWc : ∀ k : Fin 1024, x3 (ix2 (⟨k.val, by omega⟩ : Fin 2048) (⟨2048 + q.val, by omega⟩ : Fin 4096)) = P.Wc (ix2 k q))
    (hUc : ∀ k : Fin 1024, x3 (ix2 (⟨1024 + k.val, by omega⟩ : Fin 2048) (⟨2048 + q.val, by omega⟩ : Fin 4096)) = P.Uc (ix2 k q))
    (hbc : x4 (ix2 (0 : Fin 1) (⟨2048 + q.val, by omega⟩ : Fin 4096)) = P.bc (ix1 q)) :
    out0_6 x0 x1 x2 x3 x4 (ix2 p q) = newC X H C P r q := by
  unfold out0_6
  rw [View.canon_unit_zero hz]
  exact band_cell x0 x1 x2 x3 x4 X H C P r p q h0 h1 h2 hWf hUf hbf hWi hUi hbi hWc hUc hbc

/-- Window 5's buffer after the body, at (p, q). -/
theorem band_h (x0 x1 x2 : Vec Ideal S256x1024 .f32) (x3 : Vec Ideal S2048x4096 .bf16) (x4 : Vec Ideal S1x4096 .f32)
    (X H C : Mat 4096 1024) (P : Params) (r : Fin 4096) (p : Fin 256) (q : Fin 1024)
    (h0 : ∀ k : Fin 1024, x0 (ix2 p k) = X (ix2 r k)) (h1 : ∀ k : Fin 1024, x1 (ix2 p k) = H (ix2 r k))
    (h2 : x2 (ix2 p q) = C (ix2 r q))
    (hWf : ∀ k : Fin 1024, x3 (ix2 (⟨k.val, by omega⟩ : Fin 2048) (⟨0 + q.val, by omega⟩ : Fin 4096)) = P.Wf (ix2 k q))
    (hUf : ∀ k : Fin 1024, x3 (ix2 (⟨1024 + k.val, by omega⟩ : Fin 2048) (⟨0 + q.val, by omega⟩ : Fin 4096)) = P.Uf (ix2 k q))
    (hbf : x4 (ix2 (0 : Fin 1) (⟨0 + q.val, by omega⟩ : Fin 4096)) = P.bf (ix1 q))
    (hWi : ∀ k : Fin 1024, x3 (ix2 (⟨k.val, by omega⟩ : Fin 2048) (⟨1024 + q.val, by omega⟩ : Fin 4096)) = P.Wi (ix2 k q))
    (hUi : ∀ k : Fin 1024, x3 (ix2 (⟨1024 + k.val, by omega⟩ : Fin 2048) (⟨1024 + q.val, by omega⟩ : Fin 4096)) = P.Ui (ix2 k q))
    (hbi : x4 (ix2 (0 : Fin 1) (⟨1024 + q.val, by omega⟩ : Fin 4096)) = P.bi (ix1 q))
    (hWc : ∀ k : Fin 1024, x3 (ix2 (⟨k.val, by omega⟩ : Fin 2048) (⟨2048 + q.val, by omega⟩ : Fin 4096)) = P.Wc (ix2 k q))
    (hUc : ∀ k : Fin 1024, x3 (ix2 (⟨1024 + k.val, by omega⟩ : Fin 2048) (⟨2048 + q.val, by omega⟩ : Fin 4096)) = P.Uc (ix2 k q))
    (hbc : x4 (ix2 (0 : Fin 1) (⟨2048 + q.val, by omega⟩ : Fin 4096)) = P.bc (ix1 q))
    (hWo : ∀ k : Fin 1024, x3 (ix2 (⟨k.val, by omega⟩ : Fin 2048) (⟨3072 + q.val, by omega⟩ : Fin 4096)) = P.Wo (ix2 k q))
    (hUo : ∀ k : Fin 1024, x3 (ix2 (⟨1024 + k.val, by omega⟩ : Fin 2048) (⟨3072 + q.val, by omega⟩ : Fin 4096)) = P.Uo (ix2 k q))
    (hbo : x4 (ix2 (0 : Fin 1) (⟨3072 + q.val, by omega⟩ : Fin 4096)) = P.bo (ix1 q)) :
    out0_5 x0 x1 x2 x3 x4 (ix2 p q) = newH X H C P r q := by
  unfold out0_5
  rw [View.canon_unit_zero hz]
  simp only [View.ld_unit_zero (S := S256x1024) hz]
  refine (Cert.Lstm.Pay.pay1_apply x0 x1 (cellOf5 x0 x1 x2 x3 x4) (View.ld x3 rV3) (View.ld x4 rB3) p q).trans ?_
  have g3 := band_gate x0 x1 x3 x4 3072 (by omega) inb_S2048x4096_S2048x1024_0_3072 inb_S1x4096_S1x1024_0_3072 X H P.Wo P.Uo P.bo r p q h0 h1 hWo hUo hbo
  have gc := band_cell x0 x1 x2 x3 x4 X H C P r p q h0 h1 h2 hWf hUf hbf hWi hUi hbi hWc hUc hbc
  unfold newH
  rw [← g3, ← gc]

end Cert.KernelIdeal.Hand

end
-- ==== Proof.HostPrefix.lean ====
/-
  The host's operations before the region, read at an entry.

  The four gates' input weights [1024, 1024] are laid side by side into a [1024, 4096] matrix, the four recurrent
  weights likewise; the first stack is put above the second, giving a [2048, 4096] matrix, which is then converted
  (the identity on extended reals). Its entry (k, 1024 g + q) is therefore gate g's input weight (k, q), and its entry
  (1024 + k, 1024 g + q) gate g's recurrent weight (k, q). The four biases [1024] laid end to end and viewed as one row
  [1, 4096] have gate g's bias q at column 1024 g + q.
-/
import proofs.«157185_j71957882077215_2_alg».proof.Proof.KIDefs
import proofs.«157185_j71957882077215_2_alg».proof.Proof.LibSageLayer
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.ValueIdx

/-! ## Four pieces joined along one axis, read at an entry of piece g -/

section Cat4

variable {α : Type}

/-- Four [A, K] matrices side by side: column K g + q reads piece g at column q. -/
theorem cat4_cols {A K K4 : ℕ} (x : Fin 4 → ((⟨2, ![A, K]⟩ : Shape).Idx → α))
    (h : Shape.Concatenates [(⟨2, ![A, K]⟩ : Shape), ⟨2, ![A, K]⟩, ⟨2, ![A, K]⟩, ⟨2, ![A, K]⟩] ⟨2, ![A, K4]⟩ (1 : Fin 2))
    (p : Fin A) (g : Fin 4) (q : Fin K) (hq : K * g.val + q.val < K4) :
    concatenate ⟨2, ![A, K4]⟩ (1 : Fin 2)
        [⟨⟨2, ![A, K]⟩, x 0⟩, ⟨⟨2, ![A, K]⟩, x 1⟩, ⟨⟨2, ![A, K]⟩, x 2⟩, ⟨⟨2, ![A, K]⟩, x 3⟩] h (ix2 p ⟨K * g.val + q.val, hq⟩)
      = x g (ix2 p q) := by
  have hb : ∀ b : Fin 2, b.cast rfl ≠ (1 : Fin 2) →
      ((ix2 p q : (⟨2, ![A, K]⟩ : Shape).Idx) b).val
        = ((ix2 p (⟨K * g.val + q.val, hq⟩ : Fin K4) : (⟨2, ![A, K4]⟩ : Shape).Idx) (b.cast rfl)).val := fun b hb => by
    match b with
    | ⟨0, _⟩ => rfl
    | ⟨1, _⟩ => exact absurd rfl hb
  match g with
  | ⟨0, _⟩ =>
    exact concatenate_apply_piece (t := ⟨2, ![A, K4]⟩) (1 : Fin 2) [⟨⟨2, ![A, K]⟩, x 0⟩, ⟨⟨2, ![A, K]⟩, x 1⟩, ⟨⟨2, ![A, K]⟩, x 2⟩, ⟨⟨2, ![A, K]⟩, x 3⟩] h _ 0 (by simp) ⟨2, ![A, K]⟩ (x 0) rfl rfl 0 rfl
      (ix2 p q) hb (by show 0 + q.val = K * 0 + q.val; omega)
  | ⟨1, _⟩ =>
    exact concatenate_apply_piece (t := ⟨2, ![A, K4]⟩) (1 : Fin 2) [⟨⟨2, ![A, K]⟩, x 0⟩, ⟨⟨2, ![A, K]⟩, x 1⟩, ⟨⟨2, ![A, K]⟩, x 2⟩, ⟨⟨2, ![A, K]⟩, x 3⟩] h _ 1 (by simp) ⟨2, ![A, K]⟩ (x 1) rfl rfl K (by simp)
      (ix2 p q) hb (by show K + q.val = K * 1 + q.val; omega)
  | ⟨2, _⟩ =>
    exact concatenate_apply_piece (t := ⟨2, ![A, K4]⟩) (1 : Fin 2) [⟨⟨2, ![A, K]⟩, x 0⟩, ⟨⟨2, ![A, K]⟩, x 1⟩, ⟨⟨2, ![A, K]⟩, x 2⟩, ⟨⟨2, ![A, K]⟩, x 3⟩] h _ 2 (by simp) ⟨2, ![A, K]⟩ (x 2) rfl rfl (K + K) (by simp)
      (ix2 p q) hb (by show K + K + q.val = K * 2 + q.val; omega)
  | ⟨3, _⟩ =>
    exact concatenate_apply_piece (t := ⟨2, ![A, K4]⟩) (1 : Fin 2) [⟨⟨2, ![A, K]⟩, x 0⟩, ⟨⟨2, ![A, K]⟩, x 1⟩, ⟨⟨2, ![A, K]⟩, x 2⟩, ⟨⟨2, ![A, K]⟩, x 3⟩] h _ 3 (by simp) ⟨2, ![A, K]⟩ (x 3) rfl rfl (K + (K + K)) (by simp)
      (ix2 p q) hb (by show K + (K + K) + q.val = K * 3 + q.val; omega)

/-- Four vectors [K] end to end: position K g + q reads piece g at q. -/
theorem cat4_vec {K K4 : ℕ} (x : Fin 4 → ((⟨1, ![K]⟩ : Shape).Idx → α))
    (h : Shape.Concatenates [(⟨1, ![K]⟩ : Shape), ⟨1, ![K]⟩, ⟨1, ![K]⟩, ⟨1, ![K]⟩] ⟨1, ![K4]⟩ (0 : Fin 1))
    (g : Fin 4) (q : Fin K) (hq : K * g.val + q.val < K4) :
    concatenate ⟨1, ![K4]⟩ (0 : Fin 1)
        [⟨⟨1, ![K]⟩, x 0⟩, ⟨⟨1, ![K]⟩, x 1⟩, ⟨⟨1, ![K]⟩, x 2⟩, ⟨⟨1, ![K]⟩, x 3⟩] h (ix1 ⟨K * g.val + q.val, hq⟩)
      = x g (ix1 q) := by
  have hb : ∀ b : Fin 1, b.cast rfl ≠ (0 : Fin 1) →
      ((ix1 q : (⟨1, ![K]⟩ : Shape).Idx) b).val
        = ((ix1 (⟨K * g.val + q.val, hq⟩ : Fin K4) : (⟨1, ![K4]⟩ : Shape).Idx) (b.cast rfl)).val := fun b hb => by
    match b with
    | ⟨0, _⟩ => exact absurd rfl hb
  match g with
  | ⟨0, _⟩ =>
    exact concatenate_apply_piece (t := ⟨1, ![K4]⟩) (0 : Fin 1) [⟨⟨1, ![K]⟩, x 0⟩, ⟨⟨1, ![K]⟩, x 1⟩, ⟨⟨1, ![K]⟩, x 2⟩, ⟨⟨1, ![K]⟩, x 3⟩] h _ 0 (by simp) ⟨1, ![K]⟩ (x 0) rfl rfl 0 rfl
      (ix1 q) hb (by show 0 + q.val = K * 0 + q.val; omega)
  | ⟨1, _⟩ =>
    exact concatenate_apply_piece (t := ⟨1, ![K4]⟩) (0 : Fin 1) [⟨⟨1, ![K]⟩, x 0⟩, ⟨⟨1, ![K]⟩, x 1⟩, ⟨⟨1, ![K]⟩, x 2⟩, ⟨⟨1, ![K]⟩, x 3⟩] h _ 1 (by simp) ⟨1, ![K]⟩ (x 1) rfl rfl K (by simp)
      (ix1 q) hb (by show K + q.val = K * 1 + q.val; omega)
  | ⟨2, _⟩ =>
    exact concatenate_apply_piece (t := ⟨1, ![K4]⟩) (0 : Fin 1) [⟨⟨1, ![K]⟩, x 0⟩, ⟨⟨1, ![K]⟩, x 1⟩, ⟨⟨1, ![K]⟩, x 2⟩, ⟨⟨1, ![K]⟩, x 3⟩] h _ 2 (by simp) ⟨1, ![K]⟩ (x 2) rfl rfl (K + K) (by simp)
      (ix1 q) hb (by show K + K + q.val = K * 2 + q.val; omega)
  | ⟨3, _⟩ =>
    exact concatenate_apply_piece (t := ⟨1, ![K4]⟩) (0 : Fin 1) [⟨⟨1, ![K]⟩, x 0⟩, ⟨⟨1, ![K]⟩, x 1⟩, ⟨⟨1, ![K]⟩, x 2⟩, ⟨⟨1, ![K]⟩, x 3⟩] h _ 3 (by simp) ⟨1, ![K]⟩ (x 3) rfl rfl (K + (K + K)) (by simp)
      (ix1 q) hb (by show K + (K + K) + q.val = K * 3 + q.val; omega)

end Cat4

/-! ## The buffers the region reads, as the operations' terms over the launched arrays -/

section Buffers

variable (m : (ℓ : Loc nD τ sig) → Buf (Elt Ideal) ℓ) (c : Dev nD)

/-- The stacked weights: the four input weights side by side above the four recurrent weights side by side,
    converted. -/
theorem V_main_v3_eq :
    (V m c main_v3 : S2048x4096.Idx → EReal)
      = truncf .bf16 (concatenate S2048x4096 0
          [⟨S1024x4096, concatenate S1024x4096 1
              [⟨S1024x1024, Wsel m c 0⟩, ⟨S1024x1024, Wsel m c 1⟩, ⟨S1024x1024, Wsel m c 2⟩, ⟨S1024x1024, Wsel m c 3⟩]
              concatenates_S1024x1024_S1024x1024_S1024x1024_S1024x1024_S1024x4096_d1⟩,
           ⟨S1024x4096, concatenate S1024x4096 1
              [⟨S1024x1024, Usel m c 0⟩, ⟨S1024x1024, Usel m c 1⟩, ⟨S1024x1024, Usel m c 2⟩, ⟨S1024x1024, Usel m c 3⟩]
              concatenates_S1024x1024_S1024x1024_S1024x1024_S1024x1024_S1024x4096_d1⟩]
          concatenates_S1024x4096_S1024x4096_S2048x4096_d0) bitsLt_bf16_f32 := by
  dsimp only [V, hostOps0]
  after_results
  rfl

/-- The bias row: the four biases end to end, viewed as one row. -/
theorem V_main_v5_eq :
    (V m c main_v5 : S1x4096.Idx → EReal)
      = shapeCast S1x4096 (concatenate S4096 0
          [⟨S1024, bsel m c 0⟩, ⟨S1024, bsel m c 1⟩, ⟨S1024, bsel m c 2⟩, ⟨S1024, bsel m c 3⟩]
          concatenates_S1024_S1024_S1024_S1024_S4096_d0) shapeCasts_S4096_S1x4096 := by
  dsimp only [V, hostOps0]
  after_results
  rfl

end Buffers

/-! ## The three readings -/

section Readings

/-- Row k < 1024 of the stacked weights, at column 1024 g + q: gate g's input weight (k, q). -/
theorem V3_top (m : (ℓ : Loc nD τ sig) → Buf (Elt Ideal) ℓ) (c : Dev nD) (g : Fin 4) (k q : Fin 1024) :
    V m c main_v3 (ix2 (⟨k.val, by omega⟩ : Fin 2048) (⟨1024 * g.val + q.val, by omega⟩ : Fin 4096)) = Wsel m c g (ix2 k q) := by
  refine (congrFun (V_main_v3_eq m c) _).trans ?_
  refine (truncf_apply (s := S2048x4096) (φ := .f32) (ψ := .bf16) _ bitsLt_bf16_f32 _).trans ?_
  refine (Cert.SageLayer.cat_rows_left _ _ _ k (⟨1024 * g.val + q.val, by omega⟩ : Fin 4096) (by omega)).trans ?_
  exact cat4_cols (Wsel m c) _ k g q (by omega)

/-- Row 1024 + k of the stacked weights, at column 1024 g + q: gate g's recurrent weight (k, q). -/
theorem V3_bot (m : (ℓ : Loc nD τ sig) → Buf (Elt Ideal) ℓ) (c : Dev nD) (g : Fin 4) (k q : Fin 1024) :
    V m c main_v3 (ix2 (⟨1024 + k.val, by omega⟩ : Fin 2048) (⟨1024 * g.val + q.val, by omega⟩ : Fin 4096)) = Usel m c g (ix2 k q) := by
  refine (congrFun (V_main_v3_eq m c) _).trans ?_
  refine (truncf_apply (s := S2048x4096) (φ := .f32) (ψ := .bf16) _ bitsLt_bf16_f32 _).trans ?_
  refine (Cert.SageLayer.cat_rows_right _ _ _ k (⟨1024 * g.val + q.val, by omega⟩ : Fin 4096) (by omega)).trans ?_
  exact cat4_cols (Usel m c) _ k g q (by omega)

/-- The bias row at column 1024 g + q: gate g's bias q. -/
theorem V5_at (m : (ℓ : Loc nD τ sig) → Buf (Elt Ideal) ℓ) (c : Dev nD) (g : Fin 4) (q : Fin 1024) :
    V m c main_v5 (ix2 (0 : Fin 1) (⟨1024 * g.val + q.val, by omega⟩ : Fin 4096)) = bsel m c g (ix1 q) := by
  refine (congrFun (V_main_v5_eq m c) _).trans ?_
  refine (shapeCast_a_1a_apply _ _ (0 : Fin 1) (⟨1024 * g.val + q.val, by omega⟩ : Fin 4096)).trans ?_
  exact cat4_vec (bsel m c) _ g q (by omega)

end Readings

end Cert.KernelIdeal.Hand

end
-- ==== Proof.KIValue.lean ====
/-
  The kernel's two result arrays after the run, as whole-array functions of the arguments.

  What grid point t writes back to an output array is band t of the specification's array: entry (p, q) of the band
  is computed from row p of the x and h bands (rows 256·t + p of x and h), entry (p, q) of the c band, and column q of
  each gate's parameters as the stacked weights and the bias row hold them. The sixteen bands cover the array, so
  after the run the hidden-state array is the specification's hidden state and the cell-state array its cell state,
  and the fifteen arguments are as launched.
-/
import proofs.«157185_j71957882077215_2_alg».proof.Proof.KIBlocks
import proofs.«157185_j71957882077215_2_alg».proof.Proof.KIBand
import proofs.«157185_j71957882077215_2_alg».proof.Proof.HostPrefix

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx Cert.Lstm
open Idealize.ShloMosaic.Pipeline (Dat)

variable (m : (ℓ : Loc nD τ sig) → Buf (Elt Ideal) ℓ) (ρ : Dev nD → PrngReg)

/-- The twelve parameter arrays as launched. -/
def params (c : Dev nD) : Params :=
  ⟨m ((c : Thread nD τ).loc main_arg3), m ((c : Thread nD τ).loc main_arg4), m ((c : Thread nD τ).loc main_arg5), m ((c : Thread nD τ).loc main_arg6), m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13), m ((c : Thread nD τ).loc main_arg14)⟩

/-- The specification's hidden state of the launched arrays. -/
def Gh (c : Dev nD) : Mat 4096 1024 :=
  hOut (m ((c : Thread nD τ).loc main_arg0)) (m ((c : Thread nD τ).loc main_arg1)) (m ((c : Thread nD τ).loc main_arg2)) (params m c)

/-- The specification's cell state of the launched arrays. -/
def Gc (c : Dev nD) : Mat 4096 1024 :=
  cOut (m ((c : Thread nD τ).loc main_arg0)) (m ((c : Thread nD τ).loc main_arg1)) (m ((c : Thread nD τ).loc main_arg2)) (params m c)

/-- What point t writes back to the hidden-state array is band t of the specification's hidden state. -/
theorem flushed5_eq (c : Dev nD) (t : Fin cfg0.N) :
    (dats m 0 c).flushed 5 t = ((cfg0.win 5).blk t).view.read (Elt Ideal) (Gh m c) := by
  show (cfg0.win 5).cut (grid0.coords t) ((dats m 0 c).after 5 t) = _
  rw [after0_5]
  funext j
  obtain ⟨p, q, rfl⟩ : ∃ (p : Fin 256) (q : Fin 1024), j = ix2 p q := ⟨j 0, j 1, eq_ix2 j⟩
  show out0_5 (iblk m c 0 t) (iblk m c 1 t) (iblk m c 2 t) (iblk m c 3 t) (iblk m c 4 t) (ix2 p q)
    = Gh m c (((cfg0.win 5).blk t).view.emb (ix2 p q))
  rw [emb5 t p q]
  exact band_h (iblk m c 0 t) (iblk m c 1 t) (iblk m c 2 t) (iblk m c 3 t) (iblk m c 4 t)
    (m ((c : Thread nD τ).loc main_arg0)) (m ((c : Thread nD τ).loc main_arg1)) (m ((c : Thread nD τ).loc main_arg2)) (params m c)
    ⟨256 * t.val + p.val, row_lt t p⟩ p q
    (fun k => iblk0_apply m c t p k) (fun k => iblk1_apply m c t p k) (iblk2_apply m c t p q)
    (fun k => (iblk3_apply m c t _ _).trans (V3_top m c 0 k q)) (fun k => (iblk3_apply m c t _ _).trans (V3_bot m c 0 k q)) ((iblk4_apply m c t _ _).trans (V5_at m c 0 q))
    (fun k => (iblk3_apply m c t _ _).trans (V3_top m c 1 k q)) (fun k => (iblk3_apply m c t _ _).trans (V3_bot m c 1 k q)) ((iblk4_apply m c t _ _).trans (V5_at m c 1 q))
    (fun k => (iblk3_apply m c t _ _).trans (V3_top m c 2 k q)) (fun k => (iblk3_apply m c t _ _).trans (V3_bot m c 2 k q)) ((iblk4_apply m c t _ _).trans (V5_at m c 2 q))
    (fun k => (iblk3_apply m c t _ _).trans (V3_top m c 3 k q)) (fun k => (iblk3_apply m c t _ _).trans (V3_bot m c 3 k q)) ((iblk4_apply m c t _ _).trans (V5_at m c 3 q))

/-- What point t writes back to the cell-state array is band t of the specification's cell state. -/
theorem flushed6_eq (c : Dev nD) (t : Fin cfg0.N) :
    (dats m 0 c).flushed 6 t = ((cfg0.win 6).blk t).view.read (Elt Ideal) (Gc m c) := by
  show (cfg0.win 6).cut (grid0.coords t) ((dats m 0 c).after 6 t) = _
  rw [after0_6]
  funext j
  obtain ⟨p, q, rfl⟩ : ∃ (p : Fin 256) (q : Fin 1024), j = ix2 p q := ⟨j 0, j 1, eq_ix2 j⟩
  show out0_6 (iblk m c 0 t) (iblk m c 1 t) (iblk m c 2 t) (iblk m c 3 t) (iblk m c 4 t) (ix2 p q)
    = Gc m c (((cfg0.win 6).blk t).view.emb (ix2 p q))
  rw [emb6 t p q]
  exact band_c (iblk m c 0 t) (iblk m c 1 t) (iblk m c 2 t) (iblk m c 3 t) (iblk m c 4 t)
    (m ((c : Thread nD τ).loc main_arg0)) (m ((c : Thread nD τ).loc main_arg1)) (m ((c : Thread nD τ).loc main_arg2)) (params m c)
    ⟨256 * t.val + p.val, row_lt t p⟩ p q
    (fun k => iblk0_apply m c t p k) (fun k => iblk1_apply m c t p k) (iblk2_apply m c t p q)
    (fun k => (iblk3_apply m c t _ _).trans (V3_top m c 0 k q)) (fun k => (iblk3_apply m c t _ _).trans (V3_bot m c 0 k q)) ((iblk4_apply m c t _ _).trans (V5_at m c 0 q))
    (fun k => (iblk3_apply m c t _ _).trans (V3_top m c 1 k q)) (fun k => (iblk3_apply m c t _ _).trans (V3_bot m c 1 k q)) ((iblk4_apply m c t _ _).trans (V5_at m c 1 q))
    (fun k => (iblk3_apply m c t _ _).trans (V3_top m c 2 k q)) (fun k => (iblk3_apply m c t _ _).trans (V3_bot m c 2 k q)) ((iblk4_apply m c t _ _).trans (V5_at m c 2 q))

/-- The hidden-state array after the run. -/
theorem final5 (c : Dev nD) : (dats m 0 c).arrAt 5 cfg0.N = Gh m c :=
  (dats m 0 c).arrAt_eq_of_cover 5 (Gh m c) (fun t _ => flushed5_eq m c t) cover5

/-- The cell-state array after the run. -/
theorem final6 (c : Dev nD) : (dats m 0 c).arrAt 6 cfg0.N = Gc m c :=
  (dats m 0 c).arrAt_eq_of_cover 6 (Gc m c) (fun t _ => flushed6_eq m c t) cover6

/-- The run, read: every weakly fair execution terminates with the two result arrays at the specification's hidden
    and cell states of the launched arrays, and the arguments unchanged. -/
theorem run : θ_run defs (onTc (τ := τ) (main (F := Ideal))) ⟨m, fun _ => 0, ρ⟩ fun r => ∀ c : Dev nD,
      r.2.mem ((c.tc : Thread nD τ).loc main_v6_0) = Gh m c
      ∧ r.2.mem ((c.tc : Thread nD τ).loc main_v6_1) = Gc m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 5).trans (final5 m c), ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩)
    (run_main m ρ)

end Cert.KernelIdeal.Hand

end
-- ==== Proof.RefValue.lean ====
/-
  The reference's step of the LSTM cell, read entry by entry.

  The reference lays the four gates' input weights side by side into one [1024, 4096] matrix (forget, input, candidate,
  output, in this order), does the same with the recurrent weights, and lays the four biases end to end into one vector
  of 4096 entries. It forms x·W + h·U + b once, a [4096, 4096] array, and cuts the four gates out of it as bands of 1024
  columns. Column 1024·g + j of a side-by-side matrix is column j of its piece g, so entry (r, 1024·g + j) of the wide
  array is gate g's pre-activation at (r, j). The sigmoid is spelt 1 / (1 + e^(-t)), which is the logistic function by
  definition once the float literal is read as the number 1.
-/
import proofs.«157185_j71957882077215_2_alg».proof.Proof.Gen.ReferenceIdeal.Read
import proofs.«157185_j71957882077215_2_alg».proof.Proof.Spec
import Idealize.ShloMosaic.Lib.ValueIdx
import Idealize.ShloMosaic.Lib.Pipeline.Value
import Idealize.ShloMosaic.PureOps.Ideal.Laws

noncomputable section

namespace Cert.Lstm.Ref

open Cert.ReferenceIdeal Cert.ReferenceIdeal.Gen Cert.ReferenceIdeal.Read Idealize.ShloMosaic Idealize.ShloMosaic.ValueIdx

/-! ## Pieces of a four-way concatenation -/

section Cat
variable {α : Type}

/-- Four [1024, 1024] matrices side by side: column 0 + j of the [1024, 4096] matrix is column j of piece 0. -/
theorem cat4_cols_0 (y₀ y₁ y₂ y₃ : S1024x1024.Idx → α)
    (h : Shape.Concatenates [S1024x1024, S1024x1024, S1024x1024, S1024x1024] S1024x4096 1) (k j : Fin 1024) (c : Fin 4096)
    (hc : c.val = 0 + j.val) :
    concatenate S1024x4096 1 [⟨S1024x1024, y₀⟩, ⟨S1024x1024, y₁⟩, ⟨S1024x1024, y₂⟩, ⟨S1024x1024, y₃⟩] h (ix2 k c) = y₀ (ix2 k j) := by
  refine concatenate_apply_piece (t := S1024x4096) 1 [⟨S1024x1024, y₀⟩, ⟨S1024x1024, y₁⟩, ⟨S1024x1024, y₂⟩, ⟨S1024x1024, y₃⟩] h (ix2 k c) 0 (by simp) S1024x1024 y₀ rfl rfl 0 rfl
    (ix2 k j) (fun b hb => ?_) ?_
  · match b with
    | ⟨0, _⟩ => rfl
    | ⟨1, _⟩ => exact absurd rfl hb
  · show 0 + j.val = c.val; omega

/-- Four [1024, 1024] matrices side by side: column 1024 + j of the [1024, 4096] matrix is column j of piece 1. -/
theorem cat4_cols_1 (y₀ y₁ y₂ y₃ : S1024x1024.Idx → α)
    (h : Shape.Concatenates [S1024x1024, S1024x1024, S1024x1024, S1024x1024] S1024x4096 1) (k j : Fin 1024) (c : Fin 4096)
    (hc : c.val = 1024 + j.val) :
    concatenate S1024x4096 1 [⟨S1024x1024, y₀⟩, ⟨S1024x1024, y₁⟩, ⟨S1024x1024, y₂⟩, ⟨S1024x1024, y₃⟩] h (ix2 k c) = y₁ (ix2 k j) := by
  refine concatenate_apply_piece (t := S1024x4096) 1 [⟨S1024x1024, y₀⟩, ⟨S1024x1024, y₁⟩, ⟨S1024x1024, y₂⟩, ⟨S1024x1024, y₃⟩] h (ix2 k c) 1 (by simp) S1024x1024 y₁ rfl rfl 1024 (by simp)
    (ix2 k j) (fun b hb => ?_) ?_
  · match b with
    | ⟨0, _⟩ => rfl
    | ⟨1, _⟩ => exact absurd rfl hb
  · show 1024 + j.val = c.val; omega

/-- Four [1024, 1024] matrices side by side: column 2048 + j of the [1024, 4096] matrix is column j of piece 2. -/
theorem cat4_cols_2 (y₀ y₁ y₂ y₃ : S1024x1024.Idx → α)
    (h : Shape.Concatenates [S1024x1024, S1024x1024, S1024x1024, S1024x1024] S1024x4096 1) (k j : Fin 1024) (c : Fin 4096)
    (hc : c.val = 2048 + j.val) :
    concatenate S1024x4096 1 [⟨S1024x1024, y₀⟩, ⟨S1024x1024, y₁⟩, ⟨S1024x1024, y₂⟩, ⟨S1024x1024, y₃⟩] h (ix2 k c) = y₂ (ix2 k j) := by
  refine concatenate_apply_piece (t := S1024x4096) 1 [⟨S1024x1024, y₀⟩, ⟨S1024x1024, y₁⟩, ⟨S1024x1024, y₂⟩, ⟨S1024x1024, y₃⟩] h (ix2 k c) 2 (by simp) S1024x1024 y₂ rfl rfl 2048 (by simp)
    (ix2 k j) (fun b hb => ?_) ?_
  · match b with
    | ⟨0, _⟩ => rfl
    | ⟨1, _⟩ => exact absurd rfl hb
  · show 2048 + j.val = c.val; omega

/-- Four [1024, 1024] matrices side by side: column 3072 + j of the [1024, 4096] matrix is column j of piece 3. -/
theorem cat4_cols_3 (y₀ y₁ y₂ y₃ : S1024x1024.Idx → α)
    (h : Shape.Concatenates [S1024x1024, S1024x1024, S1024x1024, S1024x1024] S1024x4096 1) (k j : Fin 1024) (c : Fin 4096)
    (hc : c.val = 3072 + j.val) :
    concatenate S1024x4096 1 [⟨S1024x1024, y₀⟩, ⟨S1024x1024, y₁⟩, ⟨S1024x1024, y₂⟩, ⟨S1024x1024, y₃⟩] h (ix2 k c) = y₃ (ix2 k j) := by
  refine concatenate_apply_piece (t := S1024x4096) 1 [⟨S1024x1024, y₀⟩, ⟨S1024x1024, y₁⟩, ⟨S1024x1024, y₂⟩, ⟨S1024x1024, y₃⟩] h (ix2 k c) 3 (by simp) S1024x1024 y₃ rfl rfl 3072 (by simp)
    (ix2 k j) (fun b hb => ?_) ?_
  · match b with
    | ⟨0, _⟩ => rfl
    | ⟨1, _⟩ => exact absurd rfl hb
  · show 3072 + j.val = c.val; omega

/-- Four vectors of 1024 entries end to end: entry 0 + j of the vector of 4096 is entry j of piece 0. -/
theorem cat4_vec_0 (y₀ y₁ y₂ y₃ : S1024.Idx → α)
    (h : Shape.Concatenates [S1024, S1024, S1024, S1024] S4096 0) (j : Fin 1024) (c : Fin 4096)
    (hc : c.val = 0 + j.val) :
    concatenate S4096 0 [⟨S1024, y₀⟩, ⟨S1024, y₁⟩, ⟨S1024, y₂⟩, ⟨S1024, y₃⟩] h (ix1 c) = y₀ (ix1 j) := by
  refine concatenate_apply_piece (t := S4096) 0 [⟨S1024, y₀⟩, ⟨S1024, y₁⟩, ⟨S1024, y₂⟩, ⟨S1024, y₃⟩] h (ix1 c) 0 (by simp) S1024 y₀ rfl rfl 0 rfl
    (ix1 j) (fun b hb => ?_) ?_
  · match b with
    | ⟨0, _⟩ => exact absurd rfl hb
  · show 0 + j.val = c.val; omega

/-- Four vectors of 1024 entries end to end: entry 1024 + j of the vector of 4096 is entry j of piece 1. -/
theorem cat4_vec_1 (y₀ y₁ y₂ y₃ : S1024.Idx → α)
    (h : Shape.Concatenates [S1024, S1024, S1024, S1024] S4096 0) (j : Fin 1024) (c : Fin 4096)
    (hc : c.val = 1024 + j.val) :
    concatenate S4096 0 [⟨S1024, y₀⟩, ⟨S1024, y₁⟩, ⟨S1024, y₂⟩, ⟨S1024, y₃⟩] h (ix1 c) = y₁ (ix1 j) := by
  refine concatenate_apply_piece (t := S4096) 0 [⟨S1024, y₀⟩, ⟨S1024, y₁⟩, ⟨S1024, y₂⟩, ⟨S1024, y₃⟩] h (ix1 c) 1 (by simp) S1024 y₁ rfl rfl 1024 (by simp)
    (ix1 j) (fun b hb => ?_) ?_
  · match b with
    | ⟨0, _⟩ => exact absurd rfl hb
  · show 1024 + j.val = c.val; omega

/-- Four vectors of 1024 entries end to end: entry 2048 + j of the vector of 4096 is entry j of piece 2. -/
theorem cat4_vec_2 (y₀ y₁ y₂ y₃ : S1024.Idx → α)
    (h : Shape.Concatenates [S1024, S1024, S1024, S1024] S4096 0) (j : Fin 1024) (c : Fin 4096)
    (hc : c.val = 2048 + j.val) :
    concatenate S4096 0 [⟨S1024, y₀⟩, ⟨S1024, y₁⟩, ⟨S1024, y₂⟩, ⟨S1024, y₃⟩] h (ix1 c) = y₂ (ix1 j) := by
  refine concatenate_apply_piece (t := S4096) 0 [⟨S1024, y₀⟩, ⟨S1024, y₁⟩, ⟨S1024, y₂⟩, ⟨S1024, y₃⟩] h (ix1 c) 2 (by simp) S1024 y₂ rfl rfl 2048 (by simp)
    (ix1 j) (fun b hb => ?_) ?_
  · match b with
    | ⟨0, _⟩ => exact absurd rfl hb
  · show 2048 + j.val = c.val; omega

/-- Four vectors of 1024 entries end to end: entry 3072 + j of the vector of 4096 is entry j of piece 3. -/
theorem cat4_vec_3 (y₀ y₁ y₂ y₃ : S1024.Idx → α)
    (h : Shape.Concatenates [S1024, S1024, S1024, S1024] S4096 0) (j : Fin 1024) (c : Fin 4096)
    (hc : c.val = 3072 + j.val) :
    concatenate S4096 0 [⟨S1024, y₀⟩, ⟨S1024, y₁⟩, ⟨S1024, y₂⟩, ⟨S1024, y₃⟩] h (ix1 c) = y₃ (ix1 j) := by
  refine concatenate_apply_piece (t := S4096) 0 [⟨S1024, y₀⟩, ⟨S1024, y₁⟩, ⟨S1024, y₂⟩, ⟨S1024, y₃⟩] h (ix1 c) 3 (by simp) S1024 y₃ rfl rfl 3072 (by simp)
    (ix1 j) (fun b hb => ?_) ?_
  · match b with
    | ⟨0, _⟩ => exact absurd rfl hb
  · show 3072 + j.val = c.val; omega

end Cat

/-! ## The wide pre-activation x·W + h·U + b at an entry -/

theorem lidx3 (r c : Fin 4096) (k : Fin 1024) : lidx_main_v3 (ix2 r c) k = ix2 r k :=
  funext fun a => match a with | ⟨0, _⟩ => rfl | ⟨1, _⟩ => rfl

theorem ridx3 (r c : Fin 4096) (k : Fin 1024) : ridx_main_v3 (ix2 r c) k = ix2 k c :=
  funext fun a => match a with | ⟨0, _⟩ => rfl | ⟨1, _⟩ => rfl

theorem lidx4 (r c : Fin 4096) (k : Fin 1024) : lidx_main_v4 (ix2 r c) k = ix2 r k :=
  funext fun a => match a with | ⟨0, _⟩ => rfl | ⟨1, _⟩ => rfl

theorem ridx4 (r c : Fin 4096) (k : Fin 1024) : ridx_main_v4 (ix2 r c) k = ix2 k c :=
  funext fun a => match a with | ⟨0, _⟩ => rfl | ⟨1, _⟩ => rfl

/-- The bias row broadcast down the rows: entry (r, c) reads the joined bias at c. -/
theorem idx67 (r c : Fin 4096) : idx_main_v6 (idx_main_v7 (ix2 r c)) = ix1 c :=
  funext fun a => match a with | ⟨0, _⟩ => rfl

/-- Entry (r, c) of the wide array is a gate's pre-activation at (r, j) whenever column c of the two joined weight
    matrices is column j of that gate's matrices and entry c of the joined bias is entry j of that gate's bias. -/
theorem wide_pre (x0 x1 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) (r c : Fin 4096) (j : Fin 1024) (W U : Cert.Lstm.Mat 1024 1024) (b : Cert.Lstm.Vect 1024)
    (hW : ∀ k : Fin 1024, val_main_v0 (F := Ideal) x3 x6 x9 x12 (ix2 k c) = W (ix2 k j))
    (hU : ∀ k : Fin 1024, val_main_v1 (F := Ideal) x4 x7 x10 x13 (ix2 k c) = U (ix2 k j))
    (hb : val_main_v2 (F := Ideal) x5 x8 x11 x14 (ix1 c) = b (ix1 j)) :
    val_main_v8 (F := Ideal) x0 x1 x3 x4 x5 x6 x7 x8 x9 x10 x11 x12 x13 x14 (ix2 r c) = Cert.Lstm.pre x0 x1 W U b r j := by
  rw [val_main_v8_apply, val_main_v5_apply, val_main_v3_apply, val_main_v4_apply, val_main_v7_apply, val_main_v6_apply,
    idx67, hb]
  unfold Cert.Lstm.pre
  simp only [Ideal.addf_def]
  refine congrArg₂ (· + ·) (congrArg₂ (· + ·) (Finset.sum_congr rfl fun k _ => ?_) (Finset.sum_congr rfl fun k _ => ?_)) rfl
  · rw [lidx3, ridx3, hW]
  · rw [lidx4, ridx4, hU]

/-! ## The four gates -/

/-- The forget gate's band of the wide array, columns 0 to 1023, is that gate's pre-activation. -/
theorem gate_f (x0 x1 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) (r : Fin 4096) (j : Fin 1024) :
    val_main_v9 (F := Ideal) x0 x1 x3 x4 x5 x6 x7 x8 x9 x10 x11 x12 x13 x14 (ix2 r j) = Cert.Lstm.pre x0 x1 x3 x4 x5 r j := by
  have e : idx_main_v9 (ix2 r j) = ix2 r (⟨j.val, by omega⟩ : Fin 4096) :=
    funext fun a => match a with | ⟨0, _⟩ => rfl | ⟨1, _⟩ => rfl
  rw [val_main_v9_apply, e]
  exact wide_pre x0 x1 x3 x4 x5 x6 x7 x8 x9 x10 x11 x12 x13 x14 r _ j x3 x4 x5
    (fun k => cat4_cols_0 x3 x6 x9 x12 _ k j _ (by show j.val = 0 + j.val; omega))
    (fun k => cat4_cols_0 x4 x7 x10 x13 _ k j _ (by show j.val = 0 + j.val; omega))
    (cat4_vec_0 x5 x8 x11 x14 _ j _ (by show j.val = 0 + j.val; omega))

/-- The input gate's band of the wide array, columns 1024 to 2047, is that gate's pre-activation. -/
theorem gate_i (x0 x1 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) (r : Fin 4096) (j : Fin 1024) :
    val_main_v10 (F := Ideal) x0 x1 x3 x4 x5 x6 x7 x8 x9 x10 x11 x12 x13 x14 (ix2 r j) = Cert.Lstm.pre x0 x1 x6 x7 x8 r j := by
  have e : idx_main_v10 (ix2 r j) = ix2 r (⟨1024 + j.val, by omega⟩ : Fin 4096) :=
    funext fun a => match a with | ⟨0, _⟩ => rfl | ⟨1, _⟩ => rfl
  rw [val_main_v10_apply, e]
  exact wide_pre x0 x1 x3 x4 x5 x6 x7 x8 x9 x10 x11 x12 x13 x14 r _ j x6 x7 x8
    (fun k => cat4_cols_1 x3 x6 x9 x12 _ k j _ rfl)
    (fun k => cat4_cols_1 x4 x7 x10 x13 _ k j _ rfl)
    (cat4_vec_1 x5 x8 x11 x14 _ j _ rfl)

/-- The candidate gate's band of the wide array, columns 2048 to 3071, is that gate's pre-activation. -/
theorem gate_g (x0 x1 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) (r : Fin 4096) (j : Fin 1024) :
    val_main_v11 (F := Ideal) x0 x1 x3 x4 x5 x6 x7 x8 x9 x10 x11 x12 x13 x14 (ix2 r j) = Cert.Lstm.pre x0 x1 x9 x10 x11 r j := by
  have e : idx_main_v11 (ix2 r j) = ix2 r (⟨2048 + j.val, by omega⟩ : Fin 4096) :=
    funext fun a => match a with | ⟨0, _⟩ => rfl | ⟨1, _⟩ => rfl
  rw [val_main_v11_apply, e]
  exact wide_pre x0 x1 x3 x4 x5 x6 x7 x8 x9 x10 x11 x12 x13 x14 r _ j x9 x10 x11
    (fun k => cat4_cols_2 x3 x6 x9 x12 _ k j _ rfl)
    (fun k => cat4_cols_2 x4 x7 x10 x13 _ k j _ rfl)
    (cat4_vec_2 x5 x8 x11 x14 _ j _ rfl)

/-- The output gate's band of the wide array, columns 3072 to 4095, is that gate's pre-activation. -/
theorem gate_o (x0 x1 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) (r : Fin 4096) (j : Fin 1024) :
    val_main_v12 (F := Ideal) x0 x1 x3 x4 x5 x6 x7 x8 x9 x10 x11 x12 x13 x14 (ix2 r j) = Cert.Lstm.pre x0 x1 x12 x13 x14 r j := by
  have e : idx_main_v12 (ix2 r j) = ix2 r (⟨3072 + j.val, by omega⟩ : Fin 4096) :=
    funext fun a => match a with | ⟨0, _⟩ => rfl | ⟨1, _⟩ => rfl
  rw [val_main_v12_apply, e]
  exact wide_pre x0 x1 x3 x4 x5 x6 x7 x8 x9 x10 x11 x12 x13 x14 r _ j x12 x13 x14
    (fun k => cat4_cols_3 x3 x6 x9 x12 _ k j _ rfl)
    (fun k => cat4_cols_3 x4 x7 x10 x13 _ k j _ rfl)
    (cat4_vec_3 x5 x8 x11 x14 _ j _ rfl)

/-! ## The sigmoid as the reference spells it -/

/-- The float literal 1.0 is the number 1. -/
theorem one_bits : Ideal.ofBits .f32 0x3F800000#32 = 1 := by
  simp [Ideal.ofBits, Ideal.ieee, -EReal.coe_mul]; norm_num

/-- 1 / (1 + e^(-t)) is the logistic function. -/
theorem sigmoid_spelt (t : Ideal .f32) :
    FloatOps.hostDivf (F := Ideal) (φ := .f32) (FloatOps.ofBits .f32 0x3F800000#32)
      (FloatOps.addf (FloatOps.ofBits .f32 0x3F800000#32) (FloatOps.hostUnary .exp (FloatOps.hostNegf t)))
      = Ideal.logistic t := by
  show Ideal.div (Ideal.ofBits .f32 0x3F800000#32) (Ideal.ofBits .f32 0x3F800000#32 + Ideal.exp (-t)) = Ideal.logistic t
  rw [one_bits]
  rfl

/-- The forget gate after its sigmoid. -/
theorem sig_f (x0 x1 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) (r : Fin 4096) (j : Fin 1024) :
    val_main_v18 (F := Ideal) x0 x1 x3 x4 x5 x6 x7 x8 x9 x10 x11 x12 x13 x14 (ix2 r j) = Ideal.logistic (Cert.Lstm.pre x0 x1 x3 x4 x5 r j) := by
  rw [val_main_v18_apply, val_main_v17_apply, val_main_cst_0_apply, val_main_v16_apply, val_main_v15_apply, val_main_cst_apply, val_main_v14_apply, val_main_v13_apply, gate_f]
  exact sigmoid_spelt _

/-- The input gate after its sigmoid. -/
theorem sig_i (x0 x1 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) (r : Fin 4096) (j : Fin 1024) :
    val_main_v24 (F := Ideal) x0 x1 x3 x4 x5 x6 x7 x8 x9 x10 x11 x12 x13 x14 (ix2 r j) = Ideal.logistic (Cert.Lstm.pre x0 x1 x6 x7 x8 r j) := by
  rw [val_main_v24_apply, val_main_v23_apply, val_main_cst_2_apply, val_main_v22_apply, val_main_v21_apply, val_main_cst_1_apply, val_main_v20_apply, val_main_v19_apply, gate_i]
  exact sigmoid_spelt _

/-- The output gate after its sigmoid. -/
theorem sig_o (x0 x1 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) (r : Fin 4096) (j : Fin 1024) :
    val_main_v31 (F := Ideal) x0 x1 x3 x4 x5 x6 x7 x8 x9 x10 x11 x12 x13 x14 (ix2 r j) = Ideal.logistic (Cert.Lstm.pre x0 x1 x12 x13 x14 r j) := by
  rw [val_main_v31_apply, val_main_v30_apply, val_main_cst_4_apply, val_main_v29_apply, val_main_v28_apply, val_main_cst_3_apply, val_main_v27_apply, val_main_v26_apply, gate_o]
  exact sigmoid_spelt _

/-! ## The new cell state and the new hidden state -/

/-- The new cell state at (r, j): σ(f) · c + σ(i) · tanh(g). -/
theorem cell_at (x0 x1 x2 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) (r : Fin 4096) (j : Fin 1024) :
    val_main_v34 (F := Ideal) x0 x1 x2 x3 x4 x5 x6 x7 x8 x9 x10 x11 x12 x13 x14 (ix2 r j)
      = Cert.Lstm.newC x0 x1 x2 ⟨x3, x4, x5, x6, x7, x8, x9, x10, x11, x12, x13, x14⟩ r j := by
  rw [val_main_v34_apply, val_main_v32_apply, val_main_v33_apply, val_main_v25_apply, sig_f, sig_i, gate_g]
  rfl

/-- The new hidden state at (r, j): σ(o) · tanh(new cell state). -/
theorem hid_at (x0 x1 x2 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) (r : Fin 4096) (j : Fin 1024) :
    val_main_v36 (F := Ideal) x0 x1 x2 x3 x4 x5 x6 x7 x8 x9 x10 x11 x12 x13 x14 (ix2 r j)
      = Cert.Lstm.newH x0 x1 x2 ⟨x3, x4, x5, x6, x7, x8, x9, x10, x11, x12, x13, x14⟩ r j := by
  rw [val_main_v36_apply, val_main_v35_apply, sig_o, cell_at]
  rfl

/-- The reference's new hidden state is the specification's. -/
theorem ref_h (x0 x1 x2 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) :
    val_main_v36 (F := Ideal) x0 x1 x2 x3 x4 x5 x6 x7 x8 x9 x10 x11 x12 x13 x14
      = Cert.Lstm.hOut x0 x1 x2 ⟨x3, x4, x5, x6, x7, x8, x9, x10, x11, x12, x13, x14⟩ := by
  funext i
  obtain ⟨r, j, rfl⟩ : ∃ (r : Fin 4096) (j : Fin 1024), i = ix2 r j := ⟨i 0, i 1, eq_ix2 i⟩
  exact hid_at x0 x1 x2 x3 x4 x5 x6 x7 x8 x9 x10 x11 x12 x13 x14 r j

/-- The reference's new cell state is the specification's. -/
theorem ref_c (x0 x1 x2 : (⟨S4096x1024, .f32⟩ : BufTy).Contents (Elt Ideal)) (x3 x4 : (⟨S1024x1024, .f32⟩ : BufTy).Contents (Elt Ideal)) (x5 : (⟨S1024, .f32⟩ : BufTy).Contents (Elt Ideal)) (x6 x7 : (⟨S1024x1024, .f32⟩ : BufTy).Contents (Elt Ideal)) (x8 : (⟨S1024, .f32⟩ : BufTy).Contents (Elt Ideal)) (x9 x10 : (⟨S1024x1024, .f32⟩ : BufTy).Contents (Elt Ideal)) (x11 : (⟨S1024, .f32⟩ : BufTy).Contents (Elt Ideal)) (x12 x13 : (⟨S1024x1024, .f32⟩ : BufTy).Contents (Elt Ideal)) (x14 : (⟨S1024, .f32⟩ : BufTy).Contents (Elt Ideal)) :
    val_main_v34 (F := Ideal) x0 x1 x2 x3 x4 x5 x6 x7 x8 x9 x10 x11 x12 x13 x14
      = Cert.Lstm.cOut x0 x1 x2 ⟨x3, x4, x5, x6, x7, x8, x9, x10, x11, x12, x13, x14⟩ := by
  funext i
  obtain ⟨r, j, rfl⟩ : ∃ (r : Fin 4096) (j : Fin 1024), i = ix2 r j := ⟨i 0, i 1, eq_ix2 i⟩
  exact cell_at x0 x1 x2 x3 x4 x5 x6 x7 x8 x9 x10 x11 x12 x13 x14 r j

end Cert.Lstm.Ref

end
-- ==== Proof.lean ====
/-
  An LSTM cell computed by one fused kernel equals the cell computed with plain array operations, over the extended
  reals.

  The kernel stacks the four gates' input weights and recurrent weights into one [2048, 4096] matrix and their biases
  into one row, lays each 256-row band of x beside the same band of h, and for each gate forms ONE product over the
  2048 stacked positions plus the bias; the reference forms x·W and h·U separately, adds them and the bias, and cuts the
  four gates out of the 4096 columns. Entry by entry the two agree: a sum over the 2048 stacked positions is the sum
  over the first 1024 (the x·W part) plus the sum over the last 1024 (the h·U part), which holds for all extended reals,
  so finiteness of the inputs is not used. The logistic function is 1 / (1 + e^(-t)) on both sides, tanh is one
  function on both sides, a change of float format is the identity, and the gates are combined by the same formula:
  new cell = σ(f)·c + σ(i)·tanh(g), new hidden = σ(o)·tanh(new cell).

  Both kernel programs (as printed, and read over the extended reals) run to the end on their sixteen row bands and
  leave the fifteen argument arrays unchanged: the first three are staged band by band and never written back, the
  parameters are only read by the host's concatenations. The reference is a straight line of host operations. Nothing
  was rewritten between the kernel as printed and its reading over the extended reals, so that conjunct is trivial.
-/
import proofs.«157185_j71957882077215_2_alg».proof.Defs
import proofs.«157185_j71957882077215_2_alg».proof.Proof.Gen.Kernel
import proofs.«157185_j71957882077215_2_alg».proof.Proof.Gen.Kernel.Skeleton
import proofs.«157185_j71957882077215_2_alg».proof.Proof.Gen.Kernel.Launch
import proofs.«157185_j71957882077215_2_alg».proof.Proof.Gen.Kernel.Points
import proofs.«157185_j71957882077215_2_alg».proof.Proof.Gen.KernelIdeal
import proofs.«157185_j71957882077215_2_alg».proof.Proof.Gen.KernelIdeal.Skeleton
import proofs.«157185_j71957882077215_2_alg».proof.Proof.Gen.KernelIdeal.Launch
import proofs.«157185_j71957882077215_2_alg».proof.Proof.Gen.KernelIdeal.Points
import proofs.«157185_j71957882077215_2_alg».proof.Proof.Gen.ReferenceIdeal
import proofs.«157185_j71957882077215_2_alg».proof.Proof.Gen.ReferenceIdeal.Run
import proofs.«157185_j71957882077215_2_alg».proof.Proof.Gen.ReferenceIdeal.Read
import proofs.«157185_j71957882077215_2_alg».proof.Proof.Gen.Pre_finite_inputs
import proofs.«157185_j71957882077215_2_alg».proof.Proof.KFrame
import proofs.«157185_j71957882077215_2_alg».proof.Proof.KIFrame
import proofs.«157185_j71957882077215_2_alg».proof.Proof.KIValue
import proofs.«157185_j71957882077215_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Hand.frame m ρ

/-- The kernel read over the extended reals runs and leaves its arguments unchanged. -/
theorem frame_ki : Cert.frame_KernelIdeal := fun m ρ _ => Cert.KernelIdeal.Hand.frame m ρ

/-- The reference runs and leaves its arguments unchanged: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From arguments that agree, the kernel's two result arrays and the reference's are the same arrays: the
    specification's hidden state and cell state of the arguments. -/
theorem algebraic : Cert.algebraic_KernelIdeal_ReferenceIdeal := by
  intro m ρ m' ρ' _ hagree
  refine ⟨fun c => Cert.KernelIdeal.Hand.Gh m c, fun c => Cert.KernelIdeal.Hand.Gc m c, Cert.KernelIdeal.Hand.run m ρ, ?_⟩
  refine (θ_run Cert.ReferenceIdeal.defs _ _).mono (fun r h c => ⟨?_, ?_, (h c).2.2⟩)
    (Cert.ReferenceIdeal.Value.run (F := Ideal) m' ρ')
  · obtain ⟨a0, a1, a2, a3, a4, a5, a6, a7, a8, a9, a10, a11, a12, a13, a14⟩ := hagree c
    rw [(h c).1, Cert.ReferenceIdeal.Read.val_main_v36_eq, Cert.Lstm.Ref.ref_h, a0, a1, a2, a3, a4, a5, a6, a7, a8, a9, a10, a11, a12, a13, a14]
    rfl
  · obtain ⟨a0, a1, a2, a3, a4, a5, a6, a7, a8, a9, a10, a11, a12, a13, a14⟩ := hagree c
    rw [(h c).2.1, Cert.ReferenceIdeal.Read.val_main_v34_eq, Cert.Lstm.Ref.ref_c, a0, a1, a2, a3, a4, a5, a6, a7, a8, a9, a10, a11, a12, a13, a14]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
